-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S2097152 : Shape := ⟨1, ![2097152]⟩
abbrev S64x64 : Shape := ⟨2, ![64, 64]⟩
abbrev S64 : Shape := ⟨1, ![64]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S2097152x64 .f32) (main_arg1 : IVec S2097152 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S2097152x64 : Shape := ⟨2, ![2097152, 64]⟩
abbrev S2097152 : Shape := ⟨1, ![2097152]⟩
abbrev S64x64 : Shape := ⟨2, ![64, 64]⟩
abbrev S64 : Shape := ⟨1, ![64]⟩
abbrev S1x64 : Shape := ⟨2, ![1, 64]⟩
abbrev S8192x64 : Shape := ⟨2, ![8192, 64]⟩
abbrev S8192x4x16 : Shape := ⟨3, ![8192, 4, 16]⟩
abbrev S8192x4x4 : Shape := ⟨3, ![8192, 4, 4]⟩
abbrev S8192x4 : Shape := ⟨2, ![8192, 4]⟩
abbrev S8192x4x1 : Shape := ⟨3, ![8192, 4, 1]⟩
abbrev S8192 : Shape := ⟨1, ![8192]⟩
abbrev S8192x1 : Shape := ⟨2, ![8192, 1]⟩

abbrev nBuf : Space → Nat
  | .hbm => 19
  | .vmem => 12
  | .smem => 0
  | _ => 0

abbrev bufTy : (tb : Table) → Fin (tcTables nBuf tb) → BufTy
  | .hbm, ⟨0, _⟩ => ⟨S2097152x64, .f32⟩
  | .hbm, ⟨1, _⟩ => ⟨S2097152, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S2097152x64, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S64x64_S64x64_1_0 : S64x64.Transposes [1, 0] S64x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  shapeCasts_S8192x64_S8192x4x16 : S8192x64.ShapeCasts S8192x4x16
  reduces_S8192x4x4_S8192x4 : S8192x4x4.Reduces [2] S8192x4
  shapeCasts_S8192x4_S8192x4x1 : S8192x4.ShapeCasts S8192x4x1
  broadcasts_S8192x4x1_S8192x4x4 : S8192x4x1.Broadcasts S8192x4x4
  shapeCasts_S8192x4x16_S8192x64 : S8192x4x16.ShapeCasts S8192x64
  reduces_S8192x64_S8192 : S8192x64.Reduces [1] S8192
  shapeCasts_S8192_S8192x1 : S8192.ShapeCasts S8192x1
  broadcasts_S8192x1_S8192x64 : S8192x1.Broadcasts S8192x64
  dot_S8192x64_S64x64_S8192x64_1_0_0_1_n_n_wf : DotDims.WF S8192x64 S64x64 S8192x64 [1] [0] [0] [1] [] []
  dot_S8192x4x16_S8192x4x16_S8192x4x4_2_2_1_1_0_0_wf : DotDims.WF S8192x4x16 S8192x4x16 S8192x4x4 [2] [2] [1] [1] [0] [0]
  dot_S8192x4x4_S8192x4x16_S8192x4x16_2_1_1_2_0_0_wf : DotDims.WF S8192x4x4 S8192x4x16 S8192x4x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2097152x64.size a
  hwx0_0 : ∀ i : grid0.Coords, EltTy.bits .f32 = 32 ∨ (Rect.block (s := S2097152x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x64.size a ≤ S2097152x64.size a
  hwx0_9 : ∀ i : grid0.Coords, EltTy.bits .f32 = 32 ∨ (Rect.block (s := S2097152x64) S8192x64.size (cc0_transform_9 i) (hinb0_9 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x4x16_S8192x4x16_S8192x4x4_2_2_1_1_0_0 : DotDims S8192x4x16 S8192x4x16 S8192x4x4 where
  lhsContracting := [2]
  rhsContracting := [2]
  lhsNonContracting := [1]
  rhsNonContracting := [1]
  lhsBatch := [0]
  rhsBatch := [0]
  wf := dot_S8192x4x16_S8192x4x16_S8192x4x4_2_2_1_1_0_0_wf
def dot_S8192x4x4_S8192x4x16_S8192x4x16_2_1_1_2_0_0 : DotDims S8192x4x4 S8192x4x16 S8192x4x16 where
  lhsContracting := [2]
  rhsContracting := [1]
  lhsNonContracting := [1]
  rhsNonContracting := [2]
  lhsBatch := [0]
  rhsBatch := [0]
  wf := dot_S8192x4x4_S8192x4x16_S8192x4x16_2_1_1_2_0_0_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S8192x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x64 : Shape := ⟨2, ![2097152, 64]⟩
abbrev S2097152 : Shape := ⟨1, ![2097152]⟩
abbrev S64x64 : Shape := ⟨2, ![64, 64]⟩
abbrev S64 : Shape := ⟨1, ![64]⟩
abbrev S1x64 : Shape := ⟨2, ![1, 64]⟩
abbrev S2097152x4x16 : Shape := ⟨3, ![2097152, 4, 16]⟩
abbrev S2097152x4x4 : Shape := ⟨3, ![2097152, 4, 4]⟩
abbrev S_ : Shape := ⟨0, ![]⟩
abbrev S2097152x4 : Shape := ⟨2, ![2097152, 4]⟩
abbrev S2097152x4x1 : Shape := ⟨3, ![2097152, 4, 1]⟩
abbrev S2097152x1 : Shape := ⟨2, ![2097152, 1]⟩

abbrev nBuf : Space → Nat
  | .hbm => 78
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S2097152, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S2097152x64, .f32⟩
  | .hbm, ⟨12, _⟩ => ⟨S1x64, .f32⟩
  | .hbm, ⟨13, _⟩ => ⟨S2097152x64, .f32⟩
  | .hbm, ⟨14, _⟩ => ⟨S2097152x64, .f32⟩
  | .hbm, ⟨15, _⟩ => ⟨S2097152x4x16, .f32⟩
  | .hbm, ⟨16, _⟩ => ⟨S64x64, .f32⟩
  | .hbm, ⟨17, _⟩ => ⟨S2097152x64, .f32⟩
  | .hbm, ⟨18, _⟩ => ⟨S1x64, .f32⟩
  | .hbm, ⟨19, _⟩ => ⟨S2097152x64, .f32⟩
  | .hbm, ⟨20, _⟩ => ⟨S2097152x64, .f32⟩
  | .hbm, ⟨21, _⟩ => ⟨S2097152x4x16, .f32⟩
  | .hbm, ⟨22, _⟩ => ⟨S64x64, .f32⟩
  | .hbm, ⟨23, _⟩ => ⟨S2097152x64, .f32⟩
  | .hbm, ⟨24, _⟩ => ⟨S1x64, .f32⟩
  | .hbm, ⟨25, _⟩ => ⟨S2097152x64, .f32⟩
  | .hbm, ⟨26, _⟩ => ⟨S2097152x64, .f32⟩
  | .hbm, ⟨27, _⟩ => ⟨S2097152x4x16, .f32⟩
  | .hbm, ⟨28, _⟩ => ⟨S2097152x4x4, .f32⟩
  | .hbm, ⟨29, _⟩ => ⟨S_, .f32⟩
  | .hbm, ⟨30, _⟩ => ⟨S2097152x4x4, .f32⟩
  | .hbm, ⟨31, _⟩ => ⟨S2097152x4x4, .f32⟩
  | .hbm, ⟨32, _⟩ => ⟨S_, .f32⟩
  | .hbm, ⟨33, _⟩ => ⟨S2097152x4, .f32⟩
  | .hbm, ⟨34, _⟩ => ⟨S_, .f32⟩
  | .hbm, ⟨35, _⟩ => ⟨S2097152x4, .f32⟩
  | .hbm, ⟨36, _⟩ => ⟨S2097152x4, .f32⟩
  | .hbm, ⟨37, _⟩ => ⟨S2097152x4x1, .f32⟩
  | .hbm, ⟨38, _⟩ => ⟨S2097152x4x4, .f32⟩
  | .hbm, ⟨39, _⟩ => ⟨S2097152x4x4, .f32⟩
  | .hbm, ⟨40, _⟩ => ⟨S2097152x4x4, .f32⟩
  | .hbm, ⟨41, _⟩ => ⟨S_, .f32⟩
  | .hbm, ⟨42, _⟩ => ⟨S2097152x4, .f32⟩
  | .hbm, ⟨43, _⟩ => ⟨S2097152x4x1, .f32⟩
  | .hbm, ⟨44, _⟩ => ⟨S2097152x4x4, .f32⟩
  | .hbm, ⟨45, _⟩ => ⟨S2097152x4x4, .f32⟩
  | .hbm, ⟨46, _⟩ => ⟨S2097152x4x16, .f32⟩
  | .hbm, ⟨47, _⟩ => ⟨S2097152x64, .f32⟩
  | .hbm, ⟨48, _⟩ => ⟨S2097152x64, .f32⟩
  | .hbm, ⟨49, _⟩ => ⟨S_, .f32⟩
  | .hbm, ⟨50, _⟩ => ⟨S2097152, .f32⟩
  | .hbm, ⟨51, _⟩ => ⟨S2097152x1, .f32⟩
  | .hbm, ⟨52, _⟩ => ⟨S_, .f32⟩
  | .hbm, ⟨53, _⟩ => ⟨S2097152x1, .f32⟩
  | .hbm, ⟨54, _⟩ => ⟨S2097152x1, .f32⟩
  | .hbm, ⟨55, _⟩ => ⟨S2097152x64, .f32⟩
  | .hbm, ⟨56, _⟩ => ⟨S2097152x64, .f32⟩
  | .hbm, ⟨57, _⟩ => ⟨S2097152x64, .f32⟩
  | .hbm, ⟨58, _⟩ => ⟨S_, .f32⟩
  | .hbm, ⟨59, _⟩ => ⟨S2097152, .f32⟩
  | .hbm, ⟨60, _⟩ => ⟨S2097152x1, .f32⟩
  | .hbm, ⟨61, _⟩ => ⟨S_, .f32⟩
  | .hbm, ⟨62, _⟩ => ⟨S2097152x1, .f32⟩
  | .hbm, ⟨63, _⟩ => ⟨S2097152x1, .f32⟩
  | .hbm, ⟨64, _⟩ => ⟨S2097152x64, .f32⟩
  | .hbm, ⟨65, _⟩ => ⟨S2097152x64, .f32⟩
  | .hbm, ⟨66, _⟩ => ⟨S_, .f32⟩
  | .hbm, ⟨67, _⟩ => ⟨S2097152x1, .f32⟩
  | .hbm, ⟨68, _⟩ => ⟨S2097152x1, .f32⟩
  | .hbm, ⟨69, _⟩ => ⟨S2097152x1, .f32⟩
  | .hbm, ⟨70, _⟩ => ⟨S2097152x64, .f32⟩
  | .hbm, ⟨71, _⟩ => ⟨S2097152x64, .f32⟩
  | .hbm, ⟨72, _⟩ => ⟨S1x64, .f32⟩
  | .hbm, ⟨73, _⟩ => ⟨S2097152x64, .f32⟩
  | .hbm, ⟨74, _⟩ => ⟨S2097152x64, .f32⟩
  | .hbm, ⟨75, _⟩ => ⟨S1x64, .f32⟩
  | .hbm, ⟨76, _⟩ => ⟨S2097152x64, .f32⟩
  | .hbm, ⟨77, _⟩ => ⟨S2097152x64, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  shapeCasts_S2097152x64_S2097152x4x16 : S2097152x64.ShapeCasts S2097152x4x16
  bcast_S_S2097152x4x4 : S_.BroadcastsInDim S2097152x4x4 (![] : Fin 0 → Fin S2097152x4x4.rank)
  reducesTo_S2097152x4x4_S2097152x4_d2 : S2097152x4x4.ReducesTo [2] S2097152x4
  h_S_ : 0 < S_.numel
  bcast_S_S2097152x4 : S_.BroadcastsInDim S2097152x4 (![] : Fin 0 → Fin S2097152x4.rank)
  bcast_S2097152x4_S2097152x4x1_0_1 : S2097152x4.BroadcastsInDim S2097152x4x1 (![0, 1] : Fin 2 → Fin S2097152x4x1.rank)
  bcast_S2097152x4x1_S2097152x4x4_0_1_2 : S2097152x4x1.BroadcastsInDim S2097152x4x4 (![0, 1, 2] : Fin 3 → Fin S2097152x4x4.rank)
  shapeCasts_S2097152x4x16_S2097152x64 : S2097152x4x16.ShapeCasts S2097152x64
  reducesTo_S2097152x64_S2097152_d1 : S2097152x64.ReducesTo [1] S2097152
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x64_0_1 : S2097152x1.BroadcastsInDim S2097152x64 (![0, 1] : Fin 2 → Fin S2097152x64.rank)
  dot_S2097152x64_S64x64_S2097152x64_1_0_0_1_n_n_wf : DotDims.WF S2097152x64 S64x64 S2097152x64 [1] [0] [0] [1] [] []
  dot_S2097152x4x16_S2097152x4x16_S2097152x4x4_2_2_1_1_0_0_wf : DotDims.WF S2097152x4x16 S2097152x4x16 S2097152x4x4 [2] [2] [1] [1] [0] [0]
  dot_S2097152x4x4_S2097152x4x16_S2097152x4x16_2_1_1_2_0_0_wf : DotDims.WF S2097152x4x4 S2097152x4x16 S2097152x4x16 [2] [1] [1] [2] [0] [0]

variable [Facts₀]

def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x4x16_S2097152x4x16_S2097152x4x4_2_2_1_1_0_0 : DotDims S2097152x4x16 S2097152x4x16 S2097152x4x4 where
  lhsContracting := [2]
  rhsContracting := [2]
  lhsNonContracting := [1]
  rhsNonContracting := [1]
  lhsBatch := [0]
  rhsBatch := [0]
  wf := dot_S2097152x4x16_S2097152x4x16_S2097152x4x4_2_2_1_1_0_0_wf
def dot_S2097152x4x4_S2097152x4x16_S2097152x4x16_2_1_1_2_0_0 : DotDims S2097152x4x4 S2097152x4x16 S2097152x4x16 where
  lhsContracting := [2]
  rhsContracting := [1]
  lhsNonContracting := [1]
  rhsNonContracting := [2]
  lhsBatch := [0]
  rhsBatch := [0]
  wf := dot_S2097152x4x4_S2097152x4x16_S2097152x4x16_2_1_1_2_0_0_wf

class Facts : Prop extends Facts₀ where

variable [Facts]
-- ==== Proof.RowIdx.lean ====
/-
  The index arithmetic of the kernel's tiling and of the head layout.

  The kernel processes the 2097152 rows in 256 blocks of 8192: row r of block t is row t * 8192 + r of the array.
  A row's 64 columns are 4 heads of 16 lanes: head h, lane d is column 16 h + d, and column c is lane c mod 16 of
  head c div 16.
-/
import Idealize.ShloMosaic.Lib.ValueIdx

namespace Cert.RowIdx

open Idealize.ShloMosaic Idealize.ShloMosaic.ValueIdx

/-- Row r of block t, as a row of the whole array. -/
def grow (t : Fin 256) (r : Fin 8192) : Fin 2097152 :=
  ⟨t.val * 8192 + r.val, by have := t.isLt; have := r.isLt; omega⟩

theorem grow_val (t : Fin 256) (r : Fin 8192) : (grow t r).val = t.val * 8192 + r.val := rfl

/-- Head h, lane d of a row is its column 16 h + d. -/
def col (h : Fin 4) (d : Fin 16) : Fin 64 := ⟨h.val * 16 + d.val, by have := h.isLt; have := d.isLt; omega⟩

theorem col_val (h : Fin 4) (d : Fin 16) : (col h d).val = h.val * 16 + d.val := rfl

/-- The head a column belongs to. -/
def headOf (c : Fin 64) : Fin 4 := ⟨c.val / 16, by have := c.isLt; omega⟩

/-- A column's lane within its head. -/
def laneOf (c : Fin 64) : Fin 16 := ⟨c.val % 16, by omega⟩

theorem headOf_val (c : Fin 64) : (headOf c).val = c.val / 16 := rfl
theorem laneOf_val (c : Fin 64) : (laneOf c).val = c.val % 16 := rfl

/-- A column is the lane of its head. -/
theorem val_eq_head_lane (c : Fin 64) : c.val = (headOf c).val * 16 + (laneOf c).val := by
  rw [headOf_val, laneOf_val]; omega

end Cert.RowIdx
-- ==== Proof.BlockReads.lean ====
/-
  The blocks the kernel's grid points read.

  The grid has 256 points. Point t stages rows t * 8192 .. t * 8192 + 8191 of the input and writes the same rows of the
  result; every parameter window stays on its one block, the whole array: the transposed weights and the vectors laid
  as one row, as the host operations before the region leave them. The index maps are decided once over the 256
  points; each window's block is then read at an entry as the argument array it comes from.
-/
import proofs.«100614_j21973052686568_1_alg».proof.Proof.Gen.KernelIdeal.Frame
import proofs.«100614_j21973052686568_1_alg».proof.Proof.Gen.ReferenceIdeal.Read
import proofs.«100614_j21973052686568_1_alg».proof.Proof.RowIdx
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.RowIdx

variable (m : (ℓ : Loc nD τ sig) → Buf (Elt Ideal) ℓ) (ρ : Dev nD → PrngReg)

/-- What the result array ends holding: the reference's composed value of the argument arrays. -/
def G (c : Dev nD) : S2097152x64.Idx → Elt Ideal .f32 :=
  Cert.ReferenceIdeal.Read.val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem hz : (![0, 0] : Fin 2 → Nat) = fun _ => 0 := funext fun a => by fin_cases a <;> rfl

/-! ## The index maps, decided over the 256 points -/

/-- The input and the output move together: block index (t, 0) at point t. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Every parameter window stays on its one block. -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The input windows' blocks -/

/-- Row r of the input's block t is row t * 8192 + r of the input. -/
theorem emb_rows0 (t : Fin cfg0.N) (r : Fin 8192) (k : Fin 64) :
    ((cfg0.win 0).blk t).view.emb (ix2 r k) = ix2 (grow (t.cast N_0) r) k := by
  obtain ⟨e0, e1, -, -⟩ := idx_rows t
  funext a; apply Fin.ext
  match a with
  | ⟨0, _⟩ => show win0_0.index t (0 : Fin 2) * 8192 + 1 * r.val = t.val * 8192 + r.val; rw [e0]; omega
  | ⟨1, _⟩ => show win0_0.index t (1 : Fin 2) * 64 + 1 * k.val = k.val; rw [e1]; omega

/-- The same for the output's block. -/
theorem emb_rows9 (t : Fin cfg0.N) (r : Fin 8192) (k : Fin 64) :
    ((cfg0.win 9).blk t).view.emb (ix2 r k) = ix2 (grow (t.cast N_0) r) k := by
  obtain ⟨-, -, e0, e1⟩ := idx_rows t
  funext a; apply Fin.ext
  match a with
  | ⟨0, _⟩ => show win0_9.index t (0 : Fin 2) * 8192 + 1 * r.val = t.val * 8192 + r.val; rw [e0]; omega
  | ⟨1, _⟩ => show win0_9.index t (1 : Fin 2) * 64 + 1 * k.val = k.val; rw [e1]; omega

/-- The input's block t read at (r, k). -/
theorem iblk0_apply (c : Dev nD) (t : Fin cfg0.N) (r : Fin 8192) (k : Fin 64) :
    iblk m c 0 t (ix2 r k) = (m ((c : Thread nD τ).loc main_arg0)) (ix2 (grow (t.cast N_0) r) k) := by
  show V m c main_arg0 (((cfg0.win 0).blk t).view.emb (ix2 r k)) = _
  rw [emb_rows0, V_main_arg0]

/-- Window 1's block is its whole array at every point. -/
theorem emb_whole1 (t : Fin cfg0.N) (p : Fin 64) (q : Fin 64) :
    ((cfg0.win 1).blk t).view.emb (ix2 p q) = ix2 p q := by
  obtain ⟨⟨e0, e1⟩, -, -, -, -, -, -, -⟩ := idx_whole t
  funext a; apply Fin.ext
  match a with
  | ⟨0, _⟩ => show win0_1.index t (0 : Fin 2) * 64 + 1 * p.val = p.val; rw [e0]; omega
  | ⟨1, _⟩ => show win0_1.index t (1 : Fin 2) * 64 + 1 * q.val = q.val; rw [e1]; omega

/-- The region finds, in window 1's array, the transposed weight. -/
theorem V_main_v0 (c : Dev nD) :
    (V m c main_v0 : S64x64.Idx → Elt Ideal .f32) = Cert.ReferenceIdeal.Read.val_main_v0 (F := Ideal) (m ((c : Thread nD τ).loc main_arg2)) := by
  have e : (V m c main_v0 : S64x64.Idx → Elt Ideal .f32)
      = transpose S64x64 [1, 0] (m ((c : Thread nD τ).loc main_arg2)) transposes_S64x64_S64x64_1_0 := by
    dsimp only [V, hostOps0]; after_results
  rw [e]; rfl

/-- Window 1's block at any point is the transposed weight. -/
theorem iblk1_apply (c : Dev nD) (t : Fin cfg0.N) (p q : Fin 64) :
    iblk m c 1 t (ix2 p q) = Cert.ReferenceIdeal.Read.val_main_v0 (F := Ideal) (m ((c : Thread nD τ).loc main_arg2)) (ix2 p q) := by
  show V m c main_v0 (((cfg0.win 1).blk t).view.emb (ix2 p q)) = _
  rw [emb_whole1, V_main_v0]

/-- Window 2's block is its whole array at every point. -/
theorem emb_whole2 (t : Fin cfg0.N) (p : Fin 1) (q : Fin 64) :
    ((cfg0.win 2).blk t).view.emb (ix2 p q) = ix2 p q := by
  obtain ⟨-, ⟨e0, e1⟩, -, -, -, -, -, -⟩ := idx_whole t
  funext a; apply Fin.ext
  match a with
  | ⟨0, _⟩ => show win0_2.index t (0 : Fin 2) * 1 + 1 * p.val = p.val; rw [e0]; omega
  | ⟨1, _⟩ => show win0_2.index t (1 : Fin 2) * 64 + 1 * q.val = q.val; rw [e1]; omega

/-- The region finds, in window 2's array, the vector laid as one row. -/
theorem V_main_v3 (c : Dev nD) :
    (V m c main_v3 : S1x64.Idx → Elt Ideal .f32) = shapeCast S1x64 (m ((c : Thread nD τ).loc main_arg3)) shapeCasts_S64_S1x64 := by
  dsimp only [V, hostOps0]; after_results; rfl

/-- Window 2's block at any point, at (0, q), is the vector's entry q. -/
theorem iblk2_apply (c : Dev nD) (t : Fin cfg0.N) (q : Fin 64) :
    iblk m c 2 t (ix2 (0 : Fin 1) q) = (m ((c : Thread nD τ).loc main_arg3)) (ix1 q) := by
  show V m c main_v3 (((cfg0.win 2).blk t).view.emb (ix2 (0 : Fin 1) q)) = _
  rw [emb_whole2, V_main_v3]
  exact shapeCast_a_1a_apply _ _ (0 : Fin 1) q

/-- Window 3's block is its whole array at every point. -/
theorem emb_whole3 (t : Fin cfg0.N) (p : Fin 64) (q : Fin 64) :
    ((cfg0.win 3).blk t).view.emb (ix2 p q) = ix2 p q := by
  obtain ⟨-, -, ⟨e0, e1⟩, -, -, -, -, -⟩ := idx_whole t
  funext a; apply Fin.ext
  match a with
  | ⟨0, _⟩ => show win0_3.index t (0 : Fin 2) * 64 + 1 * p.val = p.val; rw [e0]; omega
  | ⟨1, _⟩ => show win0_3.index t (1 : Fin 2) * 64 + 1 * q.val = q.val; rw [e1]; omega

/-- The region finds, in window 3's array, the transposed weight. -/
theorem V_main_v1 (c : Dev nD) :
    (V m c main_v1 : S64x64.Idx → Elt Ideal .f32) = Cert.ReferenceIdeal.Read.val_main_v6 (F := Ideal) (m ((c : Thread nD τ).loc main_arg4)) := by
  have e : (V m c main_v1 : S64x64.Idx → Elt Ideal .f32)
      = transpose S64x64 [1, 0] (m ((c : Thread nD τ).loc main_arg4)) transposes_S64x64_S64x64_1_0 := by
    dsimp only [V, hostOps0]; after_results
  rw [e]; rfl

/-- Window 3's block at any point is the transposed weight. -/
theorem iblk3_apply (c : Dev nD) (t : Fin cfg0.N) (p q : Fin 64) :
    iblk m c 3 t (ix2 p q) = Cert.ReferenceIdeal.Read.val_main_v6 (F := Ideal) (m ((c : Thread nD τ).loc main_arg4)) (ix2 p q) := by
  show V m c main_v1 (((cfg0.win 3).blk t).view.emb (ix2 p q)) = _
  rw [emb_whole3, V_main_v1]

/-- Window 4's block is its whole array at every point. -/
theorem emb_whole4 (t : Fin cfg0.N) (p : Fin 1) (q : Fin 64) :
    ((cfg0.win 4).blk t).view.emb (ix2 p q) = ix2 p q := by
  obtain ⟨-, -, -, ⟨e0, e1⟩, -, -, -, -⟩ := idx_whole t
  funext a; apply Fin.ext
  match a with
  | ⟨0, _⟩ => show win0_4.index t (0 : Fin 2) * 1 + 1 * p.val = p.val; rw [e0]; omega
  | ⟨1, _⟩ => show win0_4.index t (1 : Fin 2) * 64 + 1 * q.val = q.val; rw [e1]; omega

/-- The region finds, in window 4's array, the vector laid as one row. -/
theorem V_main_v4 (c : Dev nD) :
    (V m c main_v4 : S1x64.Idx → Elt Ideal .f32) = shapeCast S1x64 (m ((c : Thread nD τ).loc main_arg5)) shapeCasts_S64_S1x64 := by
  dsimp only [V, hostOps0]; after_results; rfl

/-- Window 4's block at any point, at (0, q), is the vector's entry q. -/
theorem iblk4_apply (c : Dev nD) (t : Fin cfg0.N) (q : Fin 64) :
    iblk m c 4 t (ix2 (0 : Fin 1) q) = (m ((c : Thread nD τ).loc main_arg5)) (ix1 q) := by
  show V m c main_v4 (((cfg0.win 4).blk t).view.emb (ix2 (0 : Fin 1) q)) = _
  rw [emb_whole4, V_main_v4]
  exact shapeCast_a_1a_apply _ _ (0 : Fin 1) q

/-- Window 5's block is its whole array at every point. -/
theorem emb_whole5 (t : Fin cfg0.N) (p : Fin 64) (q : Fin 64) :
    ((cfg0.win 5).blk t).view.emb (ix2 p q) = ix2 p q := by
  obtain ⟨-, -, -, -, ⟨e0, e1⟩, -, -, -⟩ := idx_whole t
  funext a; apply Fin.ext
  match a with
  | ⟨0, _⟩ => show win0_5.index t (0 : Fin 2) * 64 + 1 * p.val = p.val; rw [e0]; omega
  | ⟨1, _⟩ => show win0_5.index t (1 : Fin 2) * 64 + 1 * q.val = q.val; rw [e1]; omega

/-- The region finds, in window 5's array, the transposed weight. -/
theorem V_main_v2 (c : Dev nD) :
    (V m c main_v2 : S64x64.Idx → Elt Ideal .f32) = Cert.ReferenceIdeal.Read.val_main_v12 (F := Ideal) (m ((c : Thread nD τ).loc main_arg6)) := by
  have e : (V m c main_v2 : S64x64.Idx → Elt Ideal .f32)
      = transpose S64x64 [1, 0] (m ((c : Thread nD τ).loc main_arg6)) transposes_S64x64_S64x64_1_0 := by
    dsimp only [V, hostOps0]; after_results
  rw [e]; rfl

/-- Window 5's block at any point is the transposed weight. -/
theorem iblk5_apply (c : Dev nD) (t : Fin cfg0.N) (p q : Fin 64) :
    iblk m c 5 t (ix2 p q) = Cert.ReferenceIdeal.Read.val_main_v12 (F := Ideal) (m ((c : Thread nD τ).loc main_arg6)) (ix2 p q) := by
  show V m c main_v2 (((cfg0.win 5).blk t).view.emb (ix2 p q)) = _
  rw [emb_whole5, V_main_v2]

/-- Window 6's block is its whole array at every point. -/
theorem emb_whole6 (t : Fin cfg0.N) (p : Fin 1) (q : Fin 64) :
    ((cfg0.win 6).blk t).view.emb (ix2 p q) = ix2 p q := by
  obtain ⟨-, -, -, -, -, ⟨e0, e1⟩, -, -⟩ := idx_whole t
  funext a; apply Fin.ext
  match a with
  | ⟨0, _⟩ => show win0_6.index t (0 : Fin 2) * 1 + 1 * p.val = p.val; rw [e0]; omega
  | ⟨1, _⟩ => show win0_6.index t (1 : Fin 2) * 64 + 1 * q.val = q.val; rw [e1]; omega

/-- The region finds, in window 6's array, the vector laid as one row. -/
theorem V_main_v5 (c : Dev nD) :
    (V m c main_v5 : S1x64.Idx → Elt Ideal .f32) = shapeCast S1x64 (m ((c : Thread nD τ).loc main_arg7)) shapeCasts_S64_S1x64 := by
  dsimp only [V, hostOps0]; after_results; rfl

/-- Window 6's block at any point, at (0, q), is the vector's entry q. -/
theorem iblk6_apply (c : Dev nD) (t : Fin cfg0.N) (q : Fin 64) :
    iblk m c 6 t (ix2 (0 : Fin 1) q) = (m ((c : Thread nD τ).loc main_arg7)) (ix1 q) := by
  show V m c main_v5 (((cfg0.win 6).blk t).view.emb (ix2 (0 : Fin 1) q)) = _
  rw [emb_whole6, V_main_v5]
  exact shapeCast_a_1a_apply _ _ (0 : Fin 1) q

/-- Window 7's block is its whole array at every point. -/
theorem emb_whole7 (t : Fin cfg0.N) (p : Fin 1) (q : Fin 64) :
    ((cfg0.win 7).blk t).view.emb (ix2 p q) = ix2 p q := by
  obtain ⟨-, -, -, -, -, -, ⟨e0, e1⟩, -⟩ := idx_whole t
  funext a; apply Fin.ext
  match a with
  | ⟨0, _⟩ => show win0_7.index t (0 : Fin 2) * 1 + 1 * p.val = p.val; rw [e0]; omega
  | ⟨1, _⟩ => show win0_7.index t (1 : Fin 2) * 64 + 1 * q.val = q.val; rw [e1]; omega

/-- The region finds, in window 7's array, the vector laid as one row. -/
theorem V_main_v6 (c : Dev nD) :
    (V m c main_v6 : S1x64.Idx → Elt Ideal .f32) = shapeCast S1x64 (m ((c : Thread nD τ).loc main_arg8)) shapeCasts_S64_S1x64 := by
  dsimp only [V, hostOps0]; after_results; rfl

/-- Window 7's block at any point, at (0, q), is the vector's entry q. -/
theorem iblk7_apply (c : Dev nD) (t : Fin cfg0.N) (q : Fin 64) :
    iblk m c 7 t (ix2 (0 : Fin 1) q) = (m ((c : Thread nD τ).loc main_arg8)) (ix1 q) := by
  show V m c main_v6 (((cfg0.win 7).blk t).view.emb (ix2 (0 : Fin 1) q)) = _
  rw [emb_whole7, V_main_v6]
  exact shapeCast_a_1a_apply _ _ (0 : Fin 1) q

/-- Window 8's block is its whole array at every point. -/
theorem emb_whole8 (t : Fin cfg0.N) (p : Fin 1) (q : Fin 64) :
    ((cfg0.win 8).blk t).view.emb (ix2 p q) = ix2 p q := by
  obtain ⟨-, -, -, -, -, -, -, ⟨e0, e1⟩⟩ := idx_whole t
  funext a; apply Fin.ext
  match a with
  | ⟨0, _⟩ => show win0_8.index t (0 : Fin 2) * 1 + 1 * p.val = p.val; rw [e0]; omega
  | ⟨1, _⟩ => show win0_8.index t (1 : Fin 2) * 64 + 1 * q.val = q.val; rw [e1]; omega

/-- The region finds, in window 8's array, the vector laid as one row. -/
theorem V_main_v7 (c : Dev nD) :
    (V m c main_v7 : S1x64.Idx → Elt Ideal .f32) = shapeCast S1x64 (m ((c : Thread nD τ).loc main_arg9)) shapeCasts_S64_S1x64 := by
  dsimp only [V, hostOps0]; after_results; rfl

/-- Window 8's block at any point, at (0, q), is the vector's entry q. -/
theorem iblk8_apply (c : Dev nD) (t : Fin cfg0.N) (q : Fin 64) :
    iblk m c 8 t (ix2 (0 : Fin 1) q) = (m ((c : Thread nD τ).loc main_arg9)) (ix1 q) := by
  show V m c main_v7 (((cfg0.win 8).blk t).view.emb (ix2 (0 : Fin 1) q)) = _
  rw [emb_whole8, V_main_v7]
  exact shapeCast_a_1a_apply _ _ (0 : Fin 1) q

/-! ## The output window's block, for any contents -/

/-- What point t writes back of contents X of the output's staging buffer, at (r, q), is X there: the output's
    block is never cut. -/
theorem cut9_apply {α : Type} (t : Fin cfg0.N) (X : S8192x64.Idx → α) (r : Fin 8192) (q : Fin 64) :
    (cfg0.win 9).cut (grid0.coords t) X (ix2 r q) = X (ix2 r q) := by
  show X ((cfg0.win 9).xinj (grid0.coords t) (ix2 r q)) = X (ix2 r q)
  exact congrArg X (funext fun a => Fin.ext (by match a with | ⟨0, _⟩ => rfl | ⟨1, _⟩ => rfl))

/-- Block t of an array Y of the result's shape, read at (r, q), is Y at row t * 8192 + r. -/
theorem read9_apply (t : Fin cfg0.N) (Y : S2097152x64.Idx → Elt Ideal .f32) (r : Fin 8192) (q : Fin 64) :
    ((cfg0.win 9).blk t).view.read (Elt Ideal) Y (ix2 r q) = Y (ix2 (grow (t.cast N_0) r) q) := by
  show Y (((cfg0.win 9).blk t).view.emb (ix2 r q)) = _
  rw [emb_rows9]

end Cert.KernelIdeal.Whole

end
-- ==== Proof.LibGroupAxes.lean ====
/-
  A trailing axis read as groups of lanes, at an index.

  An array `[A, N]` whose second axis is `B` groups of `C` consecutive entries (`N = B · C`) is the array
  `[A, B, C]`: group `g`, lane `j` of row `p` is entry `g · C + j` of that row, because both indices have the same
  row-major position, `p · N + (g · C + j) = (p · B + g) · C + j`. The lemmas below read, at one index,

  * the shape cast `[A, N] → [A, B, C]` and the cast back (`split_apply`, `merge_apply`);
  * a per-group value kept on a unit axis, `[A, B] → [A, B, 1]`, and spread over the lanes,
    `[A, B, 1] → [A, B, C]` (`keep_apply`, `spread_lanes_apply`): what a `keepdims` reduction is followed by;
  * a per-group parameter `[1, B] → [1, B, 1]` spread over rows and lanes, `[1, B, 1] → [A, B, C]`
    (`keep_row_apply`, `spread_groups_apply`), and a per-column one `[1, N] → [A, N]` (`spread_rows_apply`);
  * a sum over the lane axis of `[A, B, C]` on the extended reals, as the sum over `Fin C` (`lane_sum_apply`).

  All are stated over arbitrary extents, with every index built from its coordinates by `ix2` / `ix3`.
-/
import Idealize.ShloMosaic.Lib.Pipeline.Value
import Idealize.ShloMosaic.Lib.ValueIdx
import Idealize.ShloMosaic.PureOps.Ideal.Laws

namespace Cert.LibGroupAxes

open Idealize.ShloMosaic Idealize.ShloMosaic.ValueIdx

variable {α : Type} {A B C N : Nat}

/-- `[A, N] → [A, B, C]` at (p, g, j) is the operand at (p, q) when `q = g · C + j`. -/
theorem split_apply (hN : N = B * C) (v : (⟨2, ![A, N]⟩ : Shape).Idx → α)
    (h : (⟨2, ![A, N]⟩ : Shape).ShapeCasts ⟨3, ![A, B, C]⟩) (p : Fin A) (g : Fin B) (j : Fin C) (q : Fin N)
    (hq : q.val = g.val * C + j.val) :
    shapeCast ⟨3, ![A, B, C]⟩ v h (ix3 p g j) = v (ix2 p q) :=
  shapeCast_apply v h (ix3 p g j) (ix2 p q) (by
    rw [Shape.rowMajor_val_two, Shape.rowMajor_val_three]
    show p.val * N + q.val = (p.val * B + g.val) * C + j.val
    rw [hq, hN]; ring)

/-- `[A, B, C] → [A, N]` at (p, q) is the operand at (p, g, j) when `q = g · C + j`. -/
theorem merge_apply (hN : N = B * C) (v : (⟨3, ![A, B, C]⟩ : Shape).Idx → α)
    (h : (⟨3, ![A, B, C]⟩ : Shape).ShapeCasts ⟨2, ![A, N]⟩) (p : Fin A) (g : Fin B) (j : Fin C) (q : Fin N)
    (hq : q.val = g.val * C + j.val) :
    shapeCast ⟨2, ![A, N]⟩ v h (ix2 p q) = v (ix3 p g j) :=
  shapeCast_apply v h (ix2 p q) (ix3 p g j) (by
    rw [Shape.rowMajor_val_two, Shape.rowMajor_val_three]
    show (p.val * B + g.val) * C + j.val = p.val * N + q.val
    rw [hq, hN]; ring)

/-- `[A, B] → [A, B, 1]` at (p, g, 0) is the operand at (p, g). -/
theorem keep_apply (v : (⟨2, ![A, B]⟩ : Shape).Idx → α) (h : (⟨2, ![A, B]⟩ : Shape).ShapeCasts ⟨3, ![A, B, 1]⟩)
    (p : Fin A) (g : Fin B) :
    shapeCast ⟨3, ![A, B, 1]⟩ v h (ix3 p g (0 : Fin 1)) = v (ix2 p g) :=
  shapeCast_apply v h (ix3 p g (0 : Fin 1)) (ix2 p g) (by
    rw [Shape.rowMajor_val_two, Shape.rowMajor_val_three]
    show p.val * B + g.val = (p.val * B + g.val) * 1 + 0
    omega)

/-- `[1, B] → [1, B, 1]` at (0, g, 0) is the operand at (0, g). -/
theorem keep_row_apply (v : (⟨2, ![1, B]⟩ : Shape).Idx → α) (h : (⟨2, ![1, B]⟩ : Shape).ShapeCasts ⟨3, ![1, B, 1]⟩)
    (g : Fin B) :
    shapeCast ⟨3, ![1, B, 1]⟩ v h (ix3 (0 : Fin 1) g (0 : Fin 1)) = v (ix2 (0 : Fin 1) g) :=
  keep_apply v h (0 : Fin 1) g

/-- `[A, B, 1] → [A, B, C]` at (p, g, j) is the operand at (p, g, 0): one value for the whole group. -/
theorem spread_lanes_apply (v : (⟨3, ![A, B, 1]⟩ : Shape).Idx → α)
    (h : (⟨3, ![A, B, 1]⟩ : Shape).Broadcasts ⟨3, ![A, B, C]⟩) (p : Fin A) (g : Fin B) (j : Fin C) :
    broadcastTo ⟨3, ![A, B, C]⟩ v h (ix3 p g j) = v (ix3 p g (0 : Fin 1)) :=
  broadcastTo_apply v h (ix3 p g j) (ix3 p g (0 : Fin 1)) (fun ax => match ax with
    | ⟨0, _⟩ => by
        show p.val = if A = 1 then 0 else p.val
        split_ifs with h1
        · have := p.isLt; omega
        · rfl
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, B, 1] → [A, B, C]` at (p, g, j) is the operand at (0, g, 0): one value per group, for every row. -/
theorem spread_groups_apply (v : (⟨3, ![1, B, 1]⟩ : Shape).Idx → α)
    (h : (⟨3, ![1, B, 1]⟩ : Shape).Broadcasts ⟨3, ![A, B, C]⟩) (p : Fin A) (g : Fin B) (j : Fin C) :
    broadcastTo ⟨3, ![A, B, C]⟩ v h (ix3 p g j) = v (ix3 (0 : Fin 1) g (0 : Fin 1)) :=
  broadcastTo_apply v h (ix3 p g j) (ix3 (0 : Fin 1) g (0 : Fin 1)) (fun ax => match ax with
    | ⟨0, _⟩ => by
        show 0 = if (1 : Nat) = 1 then 0 else p.val
        rw [if_pos rfl]
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, N] → [A, N]` at (p, q) is the operand at (0, q): one value per column, for every row. -/
theorem spread_rows_apply (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) :=
  broadcastTo_apply v h (ix2 p q) (ix2 (0 : Fin 1) q) (fun ax => match ax with
    | ⟨0, _⟩ => by
        show 0 = if (1 : Nat) = 1 then 0 else p.val
        rw [if_pos rfl]
    | ⟨1, _⟩ => by
        show q.val = if N = 1 then 0 else q.val
        split_ifs with h1
        · have := q.isLt; omega
        · rfl)

/-- On the extended reals, the sum over the lane axis of `[A, B, C]` at (p, g) is the sum of the group's `C` entries. -/
theorem lane_sum_apply {φ : FTy} (src : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.add.neutral φ hφ) (p : Fin A) (g : Fin B) :
    multiReduction .add [(2 : Fin 3)] ⟨2, ![A, B]⟩ src acc h hφ hacc (ix2 p g) = ∑ j : Fin C, src (ix3 p g j) :=
  (Ideal.multiReduction_add_single src acc h hφ hacc (ix2 p g)).trans
    (Finset.sum_congr rfl fun k _ => congrArg src (funext fun ax => Fin.ext (by
      match ax with | ⟨0, _⟩ => rfl | ⟨1, _⟩ => rfl | ⟨2, _⟩ => rfl)))

end Cert.LibGroupAxes
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibRowReduce.lean ====
/-
  A reduction along the rows of a matrix, read at a row: over axis 1 of an [a, b] array, the sum and the maximum at
  row r run over the b entries (r, k) of that row. General in the extents and the float format; these specialise the
  library's one-axis readings, which name the entries through the reduced index with the coordinate put back.
-/
import Idealize.ShloMosaic.PureOps.Ideal.Laws
import Idealize.ShloMosaic.PureOps.Reduce
import Idealize.ShloMosaic.Lib.ValueIdx

namespace Idealize.ShloMosaic.ValueIdx

/-- Row r with column k put back is the entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum over the columns, at row r, is the sum of that row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = _
  exact Finset.sum_congr rfl fun k _ => congrArg src (lift_row h r k)

/-- A lane maximum over the columns, at row r, is the fold of max over that row's entries from the accumulator's value. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = Finset.fold max (Ideal.ofBits φ acc) (fun k : Fin b => src (ix2 r k)) Finset.univ := by
  refine (Ideal.multiReduction_maximumf_single src acc h hφ hacc (ix1 r)).trans ?_
  show Finset.fold max (Ideal.ofBits φ acc) (src ∘ h.lift (ix1 r)) (Finset.univ : Finset (Fin b)) = _
  exact congrArg (fun f => Finset.fold max (Ideal.ofBits φ acc) f (Finset.univ : Finset (Fin b)))
    (funext fun k => congrArg src (lift_row h r k))

end Idealize.ShloMosaic.ValueIdx
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibBatchedDot.lean ====
/-
  A matrix product with one leading batch axis, read at an entry, on the extended reals.

  Two arrangements, each with axis 0 of both operands and of the result as the batch axis:

  * rows against rows, [A, B, K] by [A, C, K] -> [A, B, C] (both operands contracted on their last axis): entry
    (p, h, g) is the sum over k of l(p, h, k) * r(p, g, k) -- the inner products of the rows h of the left slice p
    with the rows g of the right slice p;
  * rows against columns, [A, B, K] by [A, K, C] -> [A, B, C] (the left operand contracted on its last axis, the
    right on its middle one): entry (p, h, g) is the sum over k of l(p, h, k) * r(p, k, g).

  Both hold for a product into the zero accumulator and for the host's dot_general, at the ideal values, for any
  extents and operand formats. The dimension numbers are given by their six lists; a printed record of these
  numbers satisfies each of the six equations by rfl.
-/
import Idealize.ShloMosaic.PureOps.Ideal.Laws
import Idealize.ShloMosaic.Lib.ValueIdx

namespace Cert.LibBatchedDot

open Idealize.ShloMosaic Idealize.ShloMosaic.ValueIdx

variable {A B C K : Nat}

/-! ## Rows against rows: [A, B, K] by [A, C, K] -> [A, B, C] -/

section RowsRows

variable (wf : DotDims.WF (⟨3, ![A, B, K]⟩ : Shape) (⟨3, ![A, C, K]⟩ : Shape) (⟨3, ![A, B, C]⟩ : Shape) [2] [2] [1] [1] [0] [0])

/-- The record of these dimension numbers, over any proof of their well-formedness. -/
private abbrev rr : DotDims (⟨3, ![A, B, K]⟩ : Shape) (⟨3, ![A, C, K]⟩ : Shape) (⟨3, ![A, B, C]⟩ : Shape) :=
  ⟨[2], [2], [1], [1], [0], [0], wf⟩

private theorem rr_lhs0 (j : (⟨3, ![A, B, C]⟩ : Shape).Idx) (q : (rr wf).contr.Idx) :
    ((rr wf).lhsIdx j q 0).val = (j 0).val := by
  unfold DotDims.lhsIdx
  rw [dif_pos (show (0 : Fin 3) ∈ (rr wf).lhsBatch from List.mem_singleton.mpr rfl)]
  rfl

private theorem rr_lhs1 (j : (⟨3, ![A, B, C]⟩ : Shape).Idx) (q : (rr wf).contr.Idx) :
    ((rr wf).lhsIdx j q 1).val = (j 1).val := by
  unfold DotDims.lhsIdx
  rw [dif_neg (show ¬(1 : Fin 3) ∈ (rr wf).lhsBatch from fun hh => absurd (List.mem_singleton.mp hh) (by decide : ¬(1 : Fin 3) = 0)),
    dif_pos (show (1 : Fin 3) ∈ (rr wf).lhsNonContracting from List.mem_singleton.mpr rfl)]
  rfl

private theorem rr_rhs0 (j : (⟨3, ![A, B, C]⟩ : Shape).Idx) (q : (rr wf).contr.Idx) :
    ((rr wf).rhsIdx j q 0).val = (j 0).val := by
  unfold DotDims.rhsIdx
  rw [dif_pos (show (0 : Fin 3) ∈ (rr wf).rhsBatch from List.mem_singleton.mpr rfl)]
  rfl

private theorem rr_rhsN (j : (⟨3, ![A, B, C]⟩ : Shape).Idx) (q : (rr wf).contr.Idx) :
    ((rr wf).rhsIdx j q 1).val = (j 2).val := by
  unfold DotDims.rhsIdx
  rw [dif_neg (show ¬(1 : Fin 3) ∈ (rr wf).rhsBatch from fun hh => absurd (List.mem_singleton.mp hh) (by decide : ¬(1 : Fin 3) = 0)),
    dif_pos (show (1 : Fin 3) ∈ (rr wf).rhsNonContracting from List.mem_singleton.mpr rfl)]
  rfl

/-- The left operand is read at (p, h, k). -/
private theorem rr_lhsIdx (p : Fin A) (h : Fin B) (g : Fin C) (k : Fin K) :
    (rr wf).lhsIdx (ix3 p h g) ((contrEquiv1 (rr wf) K rfl rfl).symm k) = ix3 p h k := by
  have hk := contrEquiv1_symm_val (rr wf) K rfl rfl k
  funext a; apply Fin.ext
  match a with
  | ⟨0, _⟩ => exact rr_lhs0 wf _ _
  | ⟨1, _⟩ => exact rr_lhs1 wf _ _
  | ⟨2, _⟩ => exact ((rr wf).lhsIdx_val_of_single (cl := (2 : Fin 3)) rfl (ix3 p h g) _).trans hk

/-- The right operand is read at (p, g, k). -/
private theorem rr_rhsIdx (p : Fin A) (h : Fin B) (g : Fin C) (k : Fin K) :
    (rr wf).rhsIdx (ix3 p h g) ((contrEquiv1 (rr wf) K rfl rfl).symm k) = ix3 p g k := by
  have hk := contrEquiv1_symm_val (rr wf) K rfl rfl k
  funext a; apply Fin.ext
  match a with
  | ⟨0, _⟩ => exact rr_rhs0 wf _ _
  | ⟨1, _⟩ => exact rr_rhsN wf _ _
  | ⟨2, _⟩ => exact ((rr wf).rhsIdx_val_of_single (cr := (2 : Fin 3)) rfl (ix3 p h g) _).trans hk

/-- The contraction sum re-indexed by the contracted coordinate. -/
private theorem rr_sum (l : (⟨3, ![A, B, K]⟩ : Shape).Idx → EReal) (r : (⟨3, ![A, C, K]⟩ : Shape).Idx → EReal)
    (p : Fin A) (h : Fin B) (g : Fin C) :
    ∑ k : (rr wf).contr.Idx, l ((rr wf).lhsIdx (ix3 p h g) k) * r ((rr wf).rhsIdx (ix3 p h g) k)
      = ∑ k : Fin K, l (ix3 p h k) * r (ix3 p g k) := by
  rw [← Equiv.sum_comp (contrEquiv1 (rr wf) K rfl rfl).symm]
  exact Finset.sum_congr rfl fun k _ => by rw [rr_lhsIdx, rr_rhsIdx]

end RowsRows

/-- A tpu.matmul of the rows-against-rows dimension numbers into the zero accumulator, at entry (p, h, g). -/
theorem matmul_rowsRows_zero_apply {φ₁ φ₂ : FTy}
    (d : DotDims (⟨3, ![A, B, K]⟩ : Shape) (⟨3, ![A, C, K]⟩ : Shape) (⟨3, ![A, B, C]⟩ : Shape))
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (l : FVec Ideal ⟨3, ![A, B, K]⟩ φ₁) (r : FVec Ideal ⟨3, ![A, C, K]⟩ φ₂)
    (p : Fin A) (h : Fin B) (g : Fin C) :
    FloatOps.matmul d prec l r (constant ⟨3, ![A, B, C]⟩ .f32 0x00000000#32) (ix3 p h g)
      = ∑ k : Fin K, l (ix3 p h k) * r (ix3 p g k) := by
  obtain ⟨lc, rc', ln, rn, lb, rb, wf⟩ := d
  dsimp only at hlc hrc hln hrn hlb hrb
  subst hlc hrc hln hrn hlb hrb
  exact (Ideal.matmul_constant_zero_apply _ prec l r (ix3 p h g)).trans (rr_sum wf l r p h g)

/-- The host's dot_general of the rows-against-rows dimension numbers, at entry (p, h, g). -/
theorem dotGeneral_rowsRows_apply {φ₁ φ₂ : FTy}
    (d : DotDims (⟨3, ![A, B, K]⟩ : Shape) (⟨3, ![A, C, K]⟩ : Shape) (⟨3, ![A, B, C]⟩ : Shape))
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (sched : HostSchedule)
    (l : FVec Ideal ⟨3, ![A, B, K]⟩ φ₁) (r : FVec Ideal ⟨3, ![A, C, K]⟩ φ₂) (p : Fin A) (h : Fin B) (g : Fin C) :
    FloatOps.dotGeneral d prec sched l r (ix3 p h g) = ∑ k : Fin K, l (ix3 p h k) * r (ix3 p g k) := by
  obtain ⟨lc, rc', ln, rn, lb, rb, wf⟩ := d
  dsimp only at hlc hrc hln hrn hlb hrb
  subst hlc hrc hln hrn hlb hrb
  exact (Ideal.dotGeneral_apply _ prec sched l r (ix3 p h g)).trans (rr_sum wf l r p h g)

/-! ## Rows against columns: [A, B, K] by [A, K, C] -> [A, B, C] -/

section RowsCols

variable (wf : DotDims.WF (⟨3, ![A, B, K]⟩ : Shape) (⟨3, ![A, K, C]⟩ : Shape) (⟨3, ![A, B, C]⟩ : Shape) [2] [1] [1] [2] [0] [0])

/-- The record of these dimension numbers, over any proof of their well-formedness. -/
private abbrev rc : DotDims (⟨3, ![A, B, K]⟩ : Shape) (⟨3, ![A, K, C]⟩ : Shape) (⟨3, ![A, B, C]⟩ : Shape) :=
  ⟨[2], [1], [1], [2], [0], [0], wf⟩

private theorem rc_lhs0 (j : (⟨3, ![A, B, C]⟩ : Shape).Idx) (q : (rc wf).contr.Idx) :
    ((rc wf).lhsIdx j q 0).val = (j 0).val := by
  unfold DotDims.lhsIdx
  rw [dif_pos (show (0 : Fin 3) ∈ (rc wf).lhsBatch from List.mem_singleton.mpr rfl)]
  rfl

private theorem rc_lhs1 (j : (⟨3, ![A, B, C]⟩ : Shape).Idx) (q : (rc wf).contr.Idx) :
    ((rc wf).lhsIdx j q 1).val = (j 1).val := by
  unfold DotDims.lhsIdx
  rw [dif_neg (show ¬(1 : Fin 3) ∈ (rc wf).lhsBatch from fun hh => absurd (List.mem_singleton.mp hh) (by decide : ¬(1 : Fin 3) = 0)),
    dif_pos (show (1 : Fin 3) ∈ (rc wf).lhsNonContracting from List.mem_singleton.mpr rfl)]
  rfl

private theorem rc_rhs0 (j : (⟨3, ![A, B, C]⟩ : Shape).Idx) (q : (rc wf).contr.Idx) :
    ((rc wf).rhsIdx j q 0).val = (j 0).val := by
  unfold DotDims.rhsIdx
  rw [dif_pos (show (0 : Fin 3) ∈ (rc wf).rhsBatch from List.mem_singleton.mpr rfl)]
  rfl

private theorem rc_rhsN (j : (⟨3, ![A, B, C]⟩ : Shape).Idx) (q : (rc wf).contr.Idx) :
    ((rc wf).rhsIdx j q 2).val = (j 2).val := by
  unfold DotDims.rhsIdx
  rw [dif_neg (show ¬(2 : Fin 3) ∈ (rc wf).rhsBatch from fun hh => absurd (List.mem_singleton.mp hh) (by decide : ¬(2 : Fin 3) = 0)),
    dif_pos (show (2 : Fin 3) ∈ (rc wf).rhsNonContracting from List.mem_singleton.mpr rfl)]
  rfl

/-- The left operand is read at (p, h, k). -/
private theorem rc_lhsIdx (p : Fin A) (h : Fin B) (g : Fin C) (k : Fin K) :
    (rc wf).lhsIdx (ix3 p h g) ((contrEquiv1 (rc wf) K rfl rfl).symm k) = ix3 p h k := by
  have hk := contrEquiv1_symm_val (rc wf) K rfl rfl k
  funext a; apply Fin.ext
  match a with
  | ⟨0, _⟩ => exact rc_lhs0 wf _ _
  | ⟨1, _⟩ => exact rc_lhs1 wf _ _
  | ⟨2, _⟩ => exact ((rc wf).lhsIdx_val_of_single (cl := (2 : Fin 3)) rfl (ix3 p h g) _).trans hk

/-- The right operand is read at (p, k, g). -/
private theorem rc_rhsIdx (p : Fin A) (h : Fin B) (g : Fin C) (k : Fin K) :
    (rc wf).rhsIdx (ix3 p h g) ((contrEquiv1 (rc wf) K rfl rfl).symm k) = ix3 p k g := by
  have hk := contrEquiv1_symm_val (rc wf) K rfl rfl k
  funext a; apply Fin.ext
  match a with
  | ⟨0, _⟩ => exact rc_rhs0 wf _ _
  | ⟨2, _⟩ => exact rc_rhsN wf _ _
  | ⟨1, _⟩ => exact ((rc wf).rhsIdx_val_of_single (cr := (1 : Fin 3)) rfl (ix3 p h g) _).trans hk

/-- The contraction sum re-indexed by the contracted coordinate. -/
private theorem rc_sum (l : (⟨3, ![A, B, K]⟩ : Shape).Idx → EReal) (r : (⟨3, ![A, K, C]⟩ : Shape).Idx → EReal)
    (p : Fin A) (h : Fin B) (g : Fin C) :
    ∑ k : (rc wf).contr.Idx, l ((rc wf).lhsIdx (ix3 p h g) k) * r ((rc wf).rhsIdx (ix3 p h g) k)
      = ∑ k : Fin K, l (ix3 p h k) * r (ix3 p k g) := by
  rw [← Equiv.sum_comp (contrEquiv1 (rc wf) K rfl rfl).symm]
  exact Finset.sum_congr rfl fun k _ => by rw [rc_lhsIdx, rc_rhsIdx]

end RowsCols

/-- A tpu.matmul of the rows-against-columns dimension numbers into the zero accumulator, at entry (p, h, g). -/
theorem matmul_rowsCols_zero_apply {φ₁ φ₂ : FTy}
    (d : DotDims (⟨3, ![A, B, K]⟩ : Shape) (⟨3, ![A, K, C]⟩ : Shape) (⟨3, ![A, B, C]⟩ : Shape))
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (l : FVec Ideal ⟨3, ![A, B, K]⟩ φ₁) (r : FVec Ideal ⟨3, ![A, K, C]⟩ φ₂)
    (p : Fin A) (h : Fin B) (g : Fin C) :
    FloatOps.matmul d prec l r (constant ⟨3, ![A, B, C]⟩ .f32 0x00000000#32) (ix3 p h g)
      = ∑ k : Fin K, l (ix3 p h k) * r (ix3 p k g) := by
  obtain ⟨lc, rc', ln, rn, lb, rb, wf⟩ := d
  dsimp only at hlc hrc hln hrn hlb hrb
  subst hlc hrc hln hrn hlb hrb
  exact (Ideal.matmul_constant_zero_apply _ prec l r (ix3 p h g)).trans (rc_sum wf l r p h g)

/-- The host's dot_general of the rows-against-columns dimension numbers, at entry (p, h, g). -/
theorem dotGeneral_rowsCols_apply {φ₁ φ₂ : FTy}
    (d : DotDims (⟨3, ![A, B, K]⟩ : Shape) (⟨3, ![A, K, C]⟩ : Shape) (⟨3, ![A, B, C]⟩ : Shape))
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (sched : HostSchedule)
    (l : FVec Ideal ⟨3, ![A, B, K]⟩ φ₁) (r : FVec Ideal ⟨3, ![A, K, C]⟩ φ₂) (p : Fin A) (h : Fin B) (g : Fin C) :
    FloatOps.dotGeneral d prec sched l r (ix3 p h g) = ∑ k : Fin K, l (ix3 p h k) * r (ix3 p k g) := by
  obtain ⟨lc, rc', ln, rn, lb, rb, wf⟩ := d
  dsimp only at hlc hrc hln hrn hlb hrb
  subst hlc hrc hln hrn hlb hrb
  exact (Ideal.dotGeneral_apply _ prec sched l r (ix3 p h g)).trans (rc_sum wf l r p h g)

end Cert.LibBatchedDot
-- ==== Proof.LibLaneMax.lean ====
/-
  A maximum along the last axis of a rank-3 array, read at an entry, on the extended reals.

  For an array [A, B, C] the maximum over the C lanes of group (p, g) is the fold of max, from the starting value,
  over the entries (p, g, j), j : Fin C. This holds for the kernel's vector.multi_reduction <maximumf> over axis 2
  (starting from its accumulator's value) and for the host's reduce with a maximum body across dimension 2 (starting
  from its initial value), for any extents. Both readings name the lanes by ix3, so that the two sides of a softmax's
  running maximum meet on the same fold.
-/
import Idealize.ShloMosaic.PureOps.Ideal.Laws
import Idealize.ShloMosaic.PureOps.Reduce
import Idealize.ShloMosaic.Lib.ValueIdx

namespace Cert.LibLaneMax

open Idealize.ShloMosaic Idealize.ShloMosaic.ValueIdx

variable {A B C : Nat}

/-- Group (p, g) with lane k put back is the entry (p, g, k). -/
theorem lift_lane (h : (⟨3, ![A, B, C]⟩ : Shape).Reduces [(2 : Fin 3)] (⟨2, ![A, B]⟩ : Shape)) (p : Fin A) (g : Fin B)
    (k : Fin ((⟨3, ![A, B, C]⟩ : Shape).size 2)) : h.lift (ix2 p g) k = ix3 p g (⟨k.val, k.isLt⟩ : Fin C) := by
  funext c; apply Fin.ext
  match c with
  | ⟨0, _⟩ => rfl
  | ⟨1, _⟩ => rfl
  | ⟨2, _⟩ => rfl

/-- The kernel's lane maximum at (p, g): the fold of max over the group's C entries from the accumulator's value. -/
theorem lane_max_apply {φ : FTy} (src : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.maximumf.neutral φ hφ) (p : Fin A) (g : Fin B) :
    multiReduction .maximumf [(2 : Fin 3)] ⟨2, ![A, B]⟩ src acc h hφ hacc (ix2 p g)
      = Finset.fold max (Ideal.ofBits φ acc) (fun j : Fin C => src (ix3 p g j)) Finset.univ := by
  refine (Ideal.multiReduction_maximumf_single src acc h hφ hacc (ix2 p g)).trans ?_
  show Finset.fold max (Ideal.ofBits φ acc) (src ∘ h.lift (ix2 p g)) (Finset.univ : Finset (Fin C)) = _
  exact congrArg (fun f => Finset.fold max (Ideal.ofBits φ acc) f (Finset.univ : Finset (Fin C)))
    (funext fun k => congrArg src (lift_lane h p g k))

/-- The host's reduce with a maximum body across the lane axis, at (p, g): the same fold from the initial value. -/
theorem host_lane_max_apply {φ : FTy} {u : Shape} (x : FVec Ideal ⟨3, ![A, B, C]⟩ φ) (init : u.Idx → Ideal φ)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce FloatOps.maximumf x init h' hu (ix2 p g)
      = Finset.fold max (init (Shape.Idx.first hu)) (fun j : Fin C => x (ix3 p g j)) Finset.univ := by
  refine (Host.reduce_eq_fold_single FloatOps.maximumf x init h' h hu (ix2 p g)).trans ?_
  show Finset.fold max (init (Shape.Idx.first hu)) (x ∘ h.lift (ix2 p g)) (Finset.univ : Finset (Fin C)) = _
  exact congrArg (fun f => Finset.fold max (init (Shape.Idx.first hu)) f (Finset.univ : Finset (Fin C)))
    (funext fun k => congrArg x (lift_lane h p g k))

end Cert.LibLaneMax
-- ==== Proof.KernelStages.lean ====
/-
  The kernel's body on one block of 8192 rows, cut into its stages and read at an entry.

  For a block x of rows and the resident parameters the body computes, row by row:
  the three linear layers q, k, v = x W + b (W already transposed, b a one-row array); their 4 heads of 16 lanes;
  the scaled head-against-head scores s(h, g) = (sum over d of q(h, d) k(g, d)) / 4; the softmax of each score row
  (running maximum from -inf, exponentials of the centred scores, their sum, the quotient); the mix of the value
  heads, sum over g of a(h, g) v(g, d), laid back on 64 columns and added to x; and the layer normalisation
  (y - mean) * rsqrt(var + eps) * gamma + beta with mean and var the row's averages over 64 columns.

  Each stage is named here as a function of its operands, the generated payloads are shown to be their composition,
  and each stage is read at an entry built from its coordinates, on the extended reals.
-/
import proofs.«100614_j21973052686568_1_alg».proof.Proof.Gen.KernelIdeal.Skeleton
import proofs.«100614_j21973052686568_1_alg».proof.Proof.RowIdx
import proofs.«100614_j21973052686568_1_alg».proof.Proof.LibGroupAxes
import proofs.«100614_j21973052686568_1_alg».proof.Proof.LibColumns
import proofs.«100614_j21973052686568_1_alg».proof.Proof.LibRowReduce
import proofs.«100614_j21973052686568_1_alg».proof.Proof.LibPlainDot
import proofs.«100614_j21973052686568_1_alg».proof.Proof.LibBatchedDot
import proofs.«100614_j21973052686568_1_alg».proof.Proof.LibLaneMax
import Idealize.ShloMosaic.Lib.Pipeline.Value
import Idealize.ShloMosaic.Lib.ValueIdx

noncomputable section

namespace Cert.KernelIdeal.Rows

open Idealize.ShloMosaic Idealize.ShloMosaic.ValueIdx Cert.KernelIdeal.Gen
open Cert.RowIdx Cert.LibGroupAxes Cert.LibBatchedDot Cert.LibLaneMax

/-! ## The stages -/

/-- A linear layer: the block times the (transposed) weight, plus the bias row on every row. -/
def kLin (x : FVec Ideal S8192x64 .f32) (w : FVec Ideal S64x64 .f32) (b : FVec Ideal S1x64 .f32) : FVec Ideal S8192x64 .f32 :=
  addf (matmul dot_S8192x64_S64x64_S8192x64_1_0_0_1_n_n none x (shapeCast S64x64 w shapeCasts_S64x64_S64x64) (constant S8192x64 .f32 0x00000000#32))
    (broadcastTo S8192x64 (shapeCast S1x64 b shapeCasts_S1x64_S1x64) broadcasts_S1x64_S8192x64)

/-- The 64 columns as 4 heads of 16 lanes. -/
def kHeads (q : FVec Ideal S8192x64 .f32) : FVec Ideal S8192x4x16 .f32 :=
  shapeCast S8192x4x16 q shapeCasts_S8192x64_S8192x4x16

/-- The scaled scores of every head against every head, row by row. -/
def kScores (q3 k3 : FVec Ideal S8192x4x16 .f32) : FVec Ideal S8192x4x4 .f32 :=
  mulf (matmul dot_S8192x4x16_S8192x4x16_S8192x4x4_2_2_1_1_0_0 none q3 k3 (constant S8192x4x4 .f32 0x00000000#32))
    (broadcast S8192x4x4 (Scalar.ofBits .f32 0x3E800000#32))

/-- The maximum of each score row, taken from -inf. -/
def kMax (s : FVec Ideal S8192x4x4 .f32) : FVec Ideal S8192x4 .f32 :=
  maximumf (broadcast S8192x4 (Scalar.ofBits .f32 0xFF800000#32))
    (multiReduction .maximumf [2] S8192x4 s 0xFF800000#32 reduces_S8192x4x4_S8192x4 (.inl rfl) rfl)

/-- The exponentials of the scores centred at their row's maximum. -/
def kExp (s : FVec Ideal S8192x4x4 .f32) (mx : FVec Ideal S8192x4 .f32) : FVec Ideal S8192x4x4 .f32 :=
  exp (subf s (broadcastTo S8192x4x4 (shapeCast S8192x4x1 mx shapeCasts_S8192x4_S8192x4x1) broadcasts_S8192x4x1_S8192x4x4))

/-- The sum of each row of exponentials, kept on a unit axis. -/
def kDen (e : FVec Ideal S8192x4x4 .f32) : FVec Ideal S8192x4x1 .f32 :=
  shapeCast S8192x4x1 (multiReduction .add [2] S8192x4 e 0x00000000#32 reduces_S8192x4x4_S8192x4 (.inl rfl) rfl) shapeCasts_S8192x4_S8192x4x1

/-- The softmax weights. -/
def kAttn (e : FVec Ideal S8192x4x4 .f32) (den : FVec Ideal S8192x4x1 .f32) : FVec Ideal S8192x4x4 .f32 :=
  divf e (broadcastTo S8192x4x4 den broadcasts_S8192x4x1_S8192x4x4)

/-- The weighted mix of the value heads, laid back on 64 columns, plus the residual. -/
def kMix (a : FVec Ideal S8192x4x4 .f32) (v3 : FVec Ideal S8192x4x16 .f32) (x : FVec Ideal S8192x64 .f32) : FVec Ideal S8192x64 .f32 :=
  addf (shapeCast S8192x64 (matmul dot_S8192x4x4_S8192x4x16_S8192x4x16_2_1_1_2_0_0 none a v3 (constant S8192x4x16 .f32 0x00000000#32)) shapeCasts_S8192x4x16_S8192x64) x

/-- A row's average over its 64 columns, kept on a unit axis. -/
def kMean (y : FVec Ideal S8192x64 .f32) : FVec Ideal S8192x1 .f32 :=
  divf (shapeCast S8192x1 (multiReduction .add [1] S8192 y 0x00000000#32 reduces_S8192x64_S8192 (.inl rfl) rfl) shapeCasts_S8192_S8192x1)
    (broadcast S8192x1 (Scalar.ofBits .f32 0x42800000#32))

/-- A row minus its average. -/
def kCen (y : FVec Ideal S8192x64 .f32) (mu : FVec Ideal S8192x1 .f32) : FVec Ideal S8192x64 .f32 :=
  subf y (broadcastTo S8192x64 mu broadcasts_S8192x1_S8192x64)

/-- The squares. -/
def kSq (yc : FVec Ideal S8192x64 .f32) : FVec Ideal S8192x64 .f32 := mulf yc yc

/-- The normalisation: centred row times rsqrt(var + eps), times gamma, plus beta. -/
def kNorm (yc : FVec Ideal S8192x64 .f32) (var : FVec Ideal S8192x1 .f32) (g b : FVec Ideal S1x64 .f32) : FVec Ideal S8192x64 .f32 :=
  addf (mulf (mulf yc (broadcastTo S8192x64 (rsqrt (addf var (broadcast S8192x1 (Scalar.ofBits .f32 0x3727C5AC#32)))) broadcasts_S8192x1_S8192x64))
      (broadcastTo S8192x64 (shapeCast S1x64 g shapeCasts_S1x64_S1x64) broadcasts_S1x64_S8192x64))
    (broadcastTo S8192x64 (shapeCast S1x64 b shapeCasts_S1x64_S1x64) broadcasts_S1x64_S8192x64)

/-- The whole body: what the block's output holds, from the block of rows and the eight parameter arrays. -/
def kOut (x0 : FVec Ideal S8192x64 .f32) (x1 : FVec Ideal S64x64 .f32) (x2 : FVec Ideal S1x64 .f32) (x3 : FVec Ideal S64x64 .f32)
    (x4 : FVec Ideal S1x64 .f32) (x5 : FVec Ideal S64x64 .f32) (x6 x7 x8 : FVec Ideal S1x64 .f32) : FVec Ideal S8192x64 .f32 :=
  let s := kScores (kHeads (kLin x0 x1 x2)) (kHeads (kLin x0 x3 x4))
  let e := kExp s (kMax s)
  let y := kMix (kAttn e (kDen e)) (kHeads (kLin x0 x5 x6)) x0
  let yc := kCen y (kMean y)
  kNorm yc (kMean (kSq yc)) x7 x8

/-- The generated payloads compose to the whole body. -/
theorem pay_eq (x0 : Vec Ideal S8192x64 .f32) (x1 : Vec Ideal S64x64 .f32) (x2 : Vec Ideal S1x64 .f32) (x3 : Vec Ideal S64x64 .f32)
    (x4 : Vec Ideal S1x64 .f32) (x5 : Vec Ideal S64x64 .f32) (x6 x7 x8 : Vec Ideal S1x64 .f32) :
    k0_pay1 x0 (k0_pay2 x0 x5 x6) (k0_pay3 x0 x1 x2 x3 x4) (k0_pay4 x0 x1 x2 x3 x4) x7 x8 = kOut x0 x1 x2 x3 x4 x5 x6 x7 x8 := rfl

/-! ## Each stage at an entry -/

theorem kLin_apply (x : FVec Ideal S8192x64 .f32) (w : FVec Ideal S64x64 .f32) (b : FVec Ideal S1x64 .f32) (r : Fin 8192) (c : Fin 64) :
    kLin x w b (ix2 r c) = (∑ k : Fin 64, x (ix2 r k) * w (ix2 k c)) + b (ix2 (0 : Fin 1) c) := by
  unfold kLin
  rw [shapeCast_self, shapeCast_self]
  refine (addf_apply _ _ _).trans ?_
  exact congrArg₂ (· + ·) (matmul_plain_zero_apply _ rfl none x w r c) (spread_rows_apply b _ r c)

theorem kHeads_apply (q : FVec Ideal S8192x64 .f32) (r : Fin 8192) (h : Fin 4) (d : Fin 16) :
    kHeads q (ix3 r h d) = q (ix2 r (col h d)) :=
  split_apply (by decide : 64 = 4 * 16) q _ r h d (col h d) rfl

theorem kScores_apply (q3 k3 : FVec Ideal S8192x4x16 .f32) (r : Fin 8192) (h g : Fin 4) :
    kScores q3 k3 (ix3 r h g) = (∑ d : Fin 16, q3 (ix3 r h d) * k3 (ix3 r g d)) * Ideal.ofBits .f32 0x3E800000#32 := by
  unfold kScores
  refine (mulf_apply _ _ _).trans ?_
  exact congrArg₂ (· * ·) (matmul_rowsRows_zero_apply _ rfl rfl rfl rfl rfl rfl none q3 k3 r h g) rfl

theorem kMax_apply (s : FVec Ideal S8192x4x4 .f32) (r : Fin 8192) (h : Fin 4) :
    kMax s (ix2 r h) = max (Ideal.ofBits .f32 0xFF800000#32)
      (Finset.fold max (Ideal.ofBits .f32 0xFF800000#32) (fun g : Fin 4 => s (ix3 r h g)) Finset.univ) := by
  unfold kMax
  refine (maximumf_apply _ _ _).trans ?_
  exact congrArg₂ max rfl (lane_max_apply s _ _ (.inl rfl) rfl r h)

theorem kExp_apply (s : FVec Ideal S8192x4x4 .f32) (mx : FVec Ideal S8192x4 .f32) (r : Fin 8192) (h g : Fin 4) :
    kExp s mx (ix3 r h g) = Ideal.exp (s (ix3 r h g) - mx (ix2 r h)) := by
  unfold kExp
  show Ideal.exp (s (ix3 r h g) - broadcastTo S8192x4x4 (shapeCast S8192x4x1 mx shapeCasts_S8192x4_S8192x4x1) broadcasts_S8192x4x1_S8192x4x4 (ix3 r h g)) = _
  rw [spread_lanes_apply _ _ r h g, keep_apply mx _ r h]

theorem kDen_apply (e : FVec Ideal S8192x4x4 .f32) (r : Fin 8192) (h : Fin 4) :
    kDen e (ix3 r h (0 : Fin 1)) = ∑ g : Fin 4, e (ix3 r h g) := by
  unfold kDen
  rw [keep_apply _ _ r h]
  exact lane_sum_apply e _ _ (.inl rfl) rfl r h

theorem kAttn_apply (e : FVec Ideal S8192x4x4 .f32) (den : FVec Ideal S8192x4x1 .f32) (r : Fin 8192) (h g : Fin 4) :
    kAttn e den (ix3 r h g) = Ideal.div (e (ix3 r h g)) (den (ix3 r h (0 : Fin 1))) := by
  unfold kAttn
  refine (divf_apply _ _ _).trans ?_
  rw [spread_lanes_apply den _ r h g]

theorem kMix_apply (a : FVec Ideal S8192x4x4 .f32) (v3 : FVec Ideal S8192x4x16 .f32) (x : FVec Ideal S8192x64 .f32) (r : Fin 8192) (c : Fin 64) :
    kMix a v3 x (ix2 r c) = (∑ g : Fin 4, a (ix3 r (headOf c) g) * v3 (ix3 r g (laneOf c))) + x (ix2 r c) := by
  unfold kMix
  refine (addf_apply _ _ _).trans ?_
  refine congrArg (· + x (ix2 r c)) ?_
  rw [merge_apply (by decide : 64 = 4 * 16) _ _ r (headOf c) (laneOf c) c (val_eq_head_lane c)]
  exact matmul_rowsCols_zero_apply _ rfl rfl rfl rfl rfl rfl none a v3 r (headOf c) (laneOf c)

theorem kMean_apply (y : FVec Ideal S8192x64 .f32) (r : Fin 8192) :
    kMean y (ix2 r (0 : Fin 1)) = Ideal.div (∑ c : Fin 64, y (ix2 r c)) (Ideal.ofBits .f32 0x42800000#32) := by
  unfold kMean
  refine (divf_apply _ _ _).trans ?_
  rw [shapeCast_a_a1_apply _ _ r (0 : Fin 1)]
  exact congrArg₂ Ideal.div (multiReduction_add_row y _ _ (.inl rfl) rfl r) rfl

theorem kCen_apply (y : FVec Ideal S8192x64 .f32) (mu : FVec Ideal S8192x1 .f32) (r : Fin 8192) (c : Fin 64) :
    kCen y mu (ix2 r c) = y (ix2 r c) - mu (ix2 r (0 : Fin 1)) := by
  unfold kCen
  refine (subf_apply _ _ _).trans ?_
  rw [broadcastTo_a1_ab_apply mu _ r c]

theorem kSq_apply (yc : FVec Ideal S8192x64 .f32) (i : S8192x64.Idx) : kSq yc i = yc i * yc i := rfl

theorem kNorm_apply (yc : FVec Ideal S8192x64 .f32) (var : FVec Ideal S8192x1 .f32) (g b : FVec Ideal S1x64 .f32) (r : Fin 8192) (c : Fin 64) :
    kNorm yc var g b (ix2 r c)
      = yc (ix2 r c) * Ideal.rsqrt (var (ix2 r (0 : Fin 1)) + Ideal.ofBits .f32 0x3727C5AC#32) * g (ix2 (0 : Fin 1) c) + b (ix2 (0 : Fin 1) c) := by
  unfold kNorm
  rw [shapeCast_self, shapeCast_self]
  show yc (ix2 r c) * broadcastTo S8192x64 (rsqrt (addf var (broadcast S8192x1 (Scalar.ofBits .f32 0x3727C5AC#32)))) broadcasts_S8192x1_S8192x64 (ix2 r c)
      * broadcastTo S8192x64 g broadcasts_S1x64_S8192x64 (ix2 r c) + broadcastTo S8192x64 b broadcasts_S1x64_S8192x64 (ix2 r c) = _
  rw [broadcastTo_a1_ab_apply _ _ r c, spread_rows_apply g _ r c, spread_rows_apply b _ r c]
  rfl

end Cert.KernelIdeal.Rows

end
-- ==== Proof.RefStages.lean ====
/-
  The reference's value, one stage at a time, read at an entry.

  The reference computes on all 2097152 rows at once what the kernel computes block by block: the three linear
  layers, their heads, the scaled scores, the softmax (maximum from -inf, exponentials, sum, quotient), the mix of
  the value heads plus the residual, and the layer normalisation. Each stage's array is read here at an entry built
  from its coordinates, in terms of the earlier stages at such entries, on the extended reals: the generated
  one-operation readings chained, with their composed index functions identified with the coordinates.
-/
import proofs.«100614_j21973052686568_1_alg».proof.Proof.Gen.ReferenceIdeal.Read
import proofs.«100614_j21973052686568_1_alg».proof.Proof.RowIdx
import proofs.«100614_j21973052686568_1_alg».proof.Proof.LibLaneMax
import Idealize.ShloMosaic.Lib.ValueIdx
import Idealize.ShloMosaic.PureOps.Ideal.Laws

noncomputable section

namespace Cert.ReferenceIdeal.RowRead

open Idealize.ShloMosaic Idealize.ShloMosaic.ValueIdx Cert.ReferenceIdeal Cert.ReferenceIdeal.Read
open Cert.RowIdx Cert.LibLaneMax

/-- Two rank-1 indices with the same coordinate. -/
local macro "idx1" : tactic => `(tactic| (funext a; match a with | ⟨0, _⟩ => rfl))
/-- Two rank-2 indices with the same coordinates. -/
local macro "idx2" : tactic => `(tactic| (funext a; match a with | ⟨0, _⟩ => rfl | ⟨1, _⟩ => rfl))
/-- Two rank-3 indices with the same coordinates. -/
local macro "idx3" : tactic => `(tactic| (funext a; match a with | ⟨0, _⟩ => rfl | ⟨1, _⟩ => rfl | ⟨2, _⟩ => rfl))

variable (A0 : (⟨S2097152x64, .f32⟩ : BufTy).Contents (Elt Ideal))
  (A2 A4 A6 : (⟨S64x64, .f32⟩ : BufTy).Contents (Elt Ideal))
  (A3 A5 A7 A8 A9 : (⟨S64, .f32⟩ : BufTy).Contents (Elt Ideal))

/-! ## The linear layers and their heads -/

/-- The linear layer q at (n, c): the row against column c of the transposed weight, plus the bias. -/
theorem rq (n : Fin 2097152) (c : Fin 64) :
    val_main_v4 (F := Ideal) A0 A2 A3 (ix2 n c)
      = (∑ k : Fin 64, A0 (ix2 n k) * val_main_v0 (F := Ideal) A2 (ix2 k c)) + A3 (ix1 c) := by
  rw [val_main_v4_apply, val_main_v1_apply, val_main_v3_apply, val_main_v2_apply]
  refine congrArg₂ (· + ·) (Finset.sum_congr rfl fun k _ => congrArg₂ (· * ·) (congrArg A0 ?_) (congrArg _ ?_)) (congrArg A3 ?_)
  · idx2
  · idx2
  · idx1

/-- The linear layer k at (n, c): the row against column c of the transposed weight, plus the bias. -/
theorem rk (n : Fin 2097152) (c : Fin 64) :
    val_main_v10 (F := Ideal) A0 A4 A5 (ix2 n c)
      = (∑ k : Fin 64, A0 (ix2 n k) * val_main_v6 (F := Ideal) A4 (ix2 k c)) + A5 (ix1 c) := by
  rw [val_main_v10_apply, val_main_v7_apply, val_main_v9_apply, val_main_v8_apply]
  refine congrArg₂ (· + ·) (Finset.sum_congr rfl fun k _ => congrArg₂ (· * ·) (congrArg A0 ?_) (congrArg _ ?_)) (congrArg A5 ?_)
  · idx2
  · idx2
  · idx1

/-- The linear layer v at (n, c): the row against column c of the transposed weight, plus the bias. -/
theorem rv (n : Fin 2097152) (c : Fin 64) :
    val_main_v16 (F := Ideal) A0 A6 A7 (ix2 n c)
      = (∑ k : Fin 64, A0 (ix2 n k) * val_main_v12 (F := Ideal) A6 (ix2 k c)) + A7 (ix1 c) := by
  rw [val_main_v16_apply, val_main_v13_apply, val_main_v15_apply, val_main_v14_apply]
  refine congrArg₂ (· + ·) (Finset.sum_congr rfl fun k _ => congrArg₂ (· * ·) (congrArg A0 ?_) (congrArg _ ?_)) (congrArg A7 ?_)
  · idx2
  · idx2
  · idx1

/-- Head h, lane d of q is its column 16 h + d. -/
theorem rq3 (n : Fin 2097152) (h : Fin 4) (d : Fin 16) :
    val_main_v5 (F := Ideal) A0 A2 A3 (ix3 n h d) = val_main_v4 (F := Ideal) A0 A2 A3 (ix2 n (col h d)) := by
  rw [val_main_v5_apply]
  refine congrArg _ (funext fun a => Fin.ext ?_)
  have hh := h.isLt
  have hd := d.isLt
  match a with
  | ⟨0, _⟩ => show ((n.val * 4 + h.val) * 16 + d.val) / 64 = n.val; omega
  | ⟨1, _⟩ => show ((n.val * 4 + h.val) * 16 + d.val) % 64 = h.val * 16 + d.val; omega

/-- Head h, lane d of k is its column 16 h + d. -/
theorem rk3 (n : Fin 2097152) (h : Fin 4) (d : Fin 16) :
    val_main_v11 (F := Ideal) A0 A4 A5 (ix3 n h d) = val_main_v10 (F := Ideal) A0 A4 A5 (ix2 n (col h d)) := by
  rw [val_main_v11_apply]
  refine congrArg _ (funext fun a => Fin.ext ?_)
  have hh := h.isLt
  have hd := d.isLt
  match a with
  | ⟨0, _⟩ => show ((n.val * 4 + h.val) * 16 + d.val) / 64 = n.val; omega
  | ⟨1, _⟩ => show ((n.val * 4 + h.val) * 16 + d.val) % 64 = h.val * 16 + d.val; omega

/-- Head h, lane d of v is its column 16 h + d. -/
theorem rv3 (n : Fin 2097152) (h : Fin 4) (d : Fin 16) :
    val_main_v17 (F := Ideal) A0 A6 A7 (ix3 n h d) = val_main_v16 (F := Ideal) A0 A6 A7 (ix2 n (col h d)) := by
  rw [val_main_v17_apply]
  refine congrArg _ (funext fun a => Fin.ext ?_)
  have hh := h.isLt
  have hd := d.isLt
  match a with
  | ⟨0, _⟩ => show ((n.val * 4 + h.val) * 16 + d.val) / 64 = n.val; omega
  | ⟨1, _⟩ => show ((n.val * 4 + h.val) * 16 + d.val) % 64 = h.val * 16 + d.val; omega

/-! ## The scores and their softmax -/

/-- The score of head h against head g: the inner product of their 16 lanes, times a quarter. -/
theorem rscores (n : Fin 2097152) (h g : Fin 4) :
    val_main_v20 (F := Ideal) A0 A2 A3 A4 A5 (ix3 n h g)
      = (∑ d : Fin 16, val_main_v5 (F := Ideal) A0 A2 A3 (ix3 n h d) * val_main_v11 (F := Ideal) A0 A4 A5 (ix3 n g d)) * Ideal.ofBits .f32 0x3E800000#32 := by
  rw [val_main_v20_apply, val_main_v18_apply, val_main_v19_apply, val_main_cst_apply]
  refine congrArg₂ (· * ·) (Finset.sum_congr rfl fun d _ => congrArg₂ (· * ·) (congrArg _ ?_) (congrArg _ ?_)) rfl
  · idx3
  · idx3

/-- The maximum of head h's four scores, taken from -inf (and joined with -inf once more). -/
theorem rmax (n : Fin 2097152) (h : Fin 4) :
    val_main_v23 (F := Ideal) A0 A2 A3 A4 A5 (ix2 n h)
      = max (Ideal.ofBits .f32 0xFF800000#32)
          (Finset.fold max (Ideal.ofBits .f32 0xFF800000#32) (fun g : Fin 4 => val_main_v20 (F := Ideal) A0 A2 A3 A4 A5 (ix3 n h g)) Finset.univ) := by
  rw [val_main_v23_apply, val_main_v22_apply, val_main_cst_1_apply]
  refine congrArg₂ max rfl ?_
  unfold val_main_v21
  exact host_lane_max_apply _ _ _ (by decide) _ n h

/-- The exponential of a score centred at its row's maximum. -/
theorem rexp (n : Fin 2097152) (h g : Fin 4) :
    val_main_v27 (F := Ideal) A0 A2 A3 A4 A5 (ix3 n h g) = Ideal.exp (val_main_v20 (F := Ideal) A0 A2 A3 A4 A5 (ix3 n h g) - val_main_v23 (F := Ideal) A0 A2 A3 A4 A5 (ix2 n h)) := by
  rw [val_main_v27_apply, val_main_v26_apply, val_main_v25_apply, val_main_v24_apply]
  exact congrArg Ideal.exp (congrArg₂ (· - ·) rfl (congrArg _ (by idx2)))

/-- The sum of head h's four exponentials. -/
theorem rden (n : Fin 2097152) (h : Fin 4) :
    val_main_v28 (F := Ideal) A0 A2 A3 A4 A5 (ix2 n h) = ∑ g : Fin 4, val_main_v27 (F := Ideal) A0 A2 A3 A4 A5 (ix3 n h g) := by
  rw [val_main_v28_apply, val_main_cst_2_apply]
  show Ideal.ofBits .f32 0x00000000#32 + _ = _
  rw [Ideal.ofBits_zero_f32, zero_add]
  exact Finset.sum_congr rfl fun g _ => congrArg _ (by idx3)

/-- The softmax weight: an exponential over its row's sum. -/
theorem rattn (n : Fin 2097152) (h g : Fin 4) :
    val_main_v31 (F := Ideal) A0 A2 A3 A4 A5 (ix3 n h g) = Ideal.div (val_main_v27 (F := Ideal) A0 A2 A3 A4 A5 (ix3 n h g)) (val_main_v28 (F := Ideal) A0 A2 A3 A4 A5 (ix2 n h)) := by
  rw [val_main_v31_apply, val_main_v30_apply, val_main_v29_apply]
  exact congrArg₂ Ideal.div rfl (congrArg _ (by idx2))

/-! ## The mix, the residual and the normalisation -/

/-- Column c of the mixed row: its head's weights against the value heads' lane, plus the input. -/
theorem rmix (n : Fin 2097152) (c : Fin 64) :
    val_main_v34 (F := Ideal) A0 A2 A3 A4 A5 A6 A7 (ix2 n c)
      = (∑ g : Fin 4, val_main_v31 (F := Ideal) A0 A2 A3 A4 A5 (ix3 n (headOf c) g) * val_main_v17 (F := Ideal) A0 A6 A7 (ix3 n g (laneOf c))) + A0 (ix2 n c) := by
  rw [val_main_v34_apply, val_main_v33_apply]
  have hidx : idx_main_v33 (ix2 n c) = ix3 n (headOf c) (laneOf c) := by
    funext a; apply Fin.ext
    have hc := c.isLt
    match a with
    | ⟨0, _⟩ => show (n.val * 64 + c.val) / 64 = n.val; omega
    | ⟨1, _⟩ => show (n.val * 64 + c.val) / 16 % 4 = c.val / 16; omega
    | ⟨2, _⟩ => show (n.val * 64 + c.val) % 16 = c.val % 16; omega
  rw [hidx, val_main_v32_apply]
  refine congrArg₂ (· + ·) (Finset.sum_congr rfl fun g _ => congrArg₂ (· * ·) (congrArg _ ?_) (congrArg _ ?_)) rfl
  · idx3
  · idx3

/-- The row's average over its 64 columns. -/
theorem rmean (n : Fin 2097152) :
    val_main_v38 (F := Ideal) A0 A2 A3 A4 A5 A6 A7 (ix2 n (0 : Fin 1))
      = Ideal.div (∑ c : Fin 64, val_main_v34 (F := Ideal) A0 A2 A3 A4 A5 A6 A7 (ix2 n c)) (Ideal.ofBits .f32 0x42800000#32) := by
  rw [val_main_v38_apply, val_main_v36_apply, val_main_v35_apply, val_main_cst_3_apply, val_main_v37_apply, val_main_cst_4_apply]
  refine congrArg₂ Ideal.div ?_ rfl
  show Ideal.ofBits .f32 0x00000000#32 + _ = _
  rw [Ideal.ofBits_zero_f32, zero_add]
  exact Finset.sum_congr rfl fun c _ => congrArg _ (by idx2)

/-- The row minus its average (cen). -/
theorem rcen (n : Fin 2097152) (c : Fin 64) :
    val_main_v40 (F := Ideal) A0 A2 A3 A4 A5 A6 A7 (ix2 n c) = val_main_v34 (F := Ideal) A0 A2 A3 A4 A5 A6 A7 (ix2 n c) - val_main_v38 (F := Ideal) A0 A2 A3 A4 A5 A6 A7 (ix2 n (0 : Fin 1)) := by
  rw [val_main_v40_apply, val_main_v39_apply]
  exact congrArg₂ (· - ·) rfl (congrArg _ (by idx2))

/-- The row minus its average (cen'). -/
theorem rcen' (n : Fin 2097152) (c : Fin 64) :
    val_main_v47 (F := Ideal) A0 A2 A3 A4 A5 A6 A7 (ix2 n c) = val_main_v34 (F := Ideal) A0 A2 A3 A4 A5 A6 A7 (ix2 n c) - val_main_v38 (F := Ideal) A0 A2 A3 A4 A5 A6 A7 (ix2 n (0 : Fin 1)) := by
  rw [val_main_v47_apply, val_main_v46_apply]
  exact congrArg₂ (· - ·) rfl (congrArg _ (by idx2))

/-- The row's variance: the average of the squared centred entries. -/
theorem rvar (n : Fin 2097152) :
    val_main_v45 (F := Ideal) A0 A2 A3 A4 A5 A6 A7 (ix2 n (0 : Fin 1))
      = Ideal.div (∑ c : Fin 64, val_main_v40 (F := Ideal) A0 A2 A3 A4 A5 A6 A7 (ix2 n c) * val_main_v40 (F := Ideal) A0 A2 A3 A4 A5 A6 A7 (ix2 n c)) (Ideal.ofBits .f32 0x42800000#32) := by
  rw [val_main_v45_apply, val_main_v43_apply, val_main_v42_apply, val_main_cst_5_apply, val_main_v44_apply, val_main_cst_6_apply]
  refine congrArg₂ Ideal.div ?_ rfl
  show Ideal.ofBits .f32 0x00000000#32 + _ = _
  rw [Ideal.ofBits_zero_f32, zero_add]
  refine Finset.sum_congr rfl fun c _ => ?_
  have e : idx_main_v42 (idx_main_v43 (ix2 n (0 : Fin 1))) c = ix2 n c := by idx2
  rw [e, val_main_v41_apply]
  rfl

/-- The result: the centred entry times rsqrt(var + eps), times gamma, plus beta. -/
theorem rout (n : Fin 2097152) (c : Fin 64) :
    val_main_v58 (F := Ideal) A0 A2 A3 A4 A5 A6 A7 A8 A9 (ix2 n c)
      = val_main_v47 (F := Ideal) A0 A2 A3 A4 A5 A6 A7 (ix2 n c) * Ideal.rsqrt (val_main_v45 (F := Ideal) A0 A2 A3 A4 A5 A6 A7 (ix2 n (0 : Fin 1)) + Ideal.ofBits .f32 0x3727C5AC#32) * A8 (ix1 c) + A9 (ix1 c) := by
  rw [val_main_v58_apply, val_main_v55_apply, val_main_v52_apply, val_main_v51_apply, val_main_v50_apply, val_main_v49_apply,
    val_main_v48_apply, val_main_cst_7_apply, val_main_v54_apply, val_main_v53_apply, val_main_v57_apply, val_main_v56_apply]
  refine congrArg₂ (· + ·) (congrArg₂ (· * ·) (congrArg₂ (· * ·) rfl
    (congrArg Ideal.rsqrt (congrArg₂ (· + ·) (congrArg _ ?_) rfl))) (congrArg A8 ?_)) (congrArg A9 ?_)
  · idx2
  · idx1
  · idx1

end Cert.ReferenceIdeal.RowRead

end
-- ==== Proof.RowBridge.lean ====
/-
  Block t of the kernel against rows t * 8192 + r of the reference, stage by stage.

  Every stage of the computation is local to a row. So if the kernel's block of inputs is rows t * 8192 + r of the
  reference's input, and the parameters are the same, then each kernel stage at row r of the block equals the
  reference's stage at row t * 8192 + r, entry by entry: both sides read the same formula of the previous stage's
  entries of that row. The chain ends with the block's output being rows t * 8192 + r of the reference's result.
-/
import proofs.«100614_j21973052686568_1_alg».proof.Proof.KernelStages
import proofs.«100614_j21973052686568_1_alg».proof.Proof.RefStages

noncomputable section

namespace Cert.RowBridge

open Idealize.ShloMosaic Idealize.ShloMosaic.ValueIdx
open Cert.KernelIdeal Cert.KernelIdeal.Rows Cert.ReferenceIdeal.Read Cert.ReferenceIdeal.RowRead Cert.RowIdx

variable (A0 : (⟨Cert.ReferenceIdeal.S2097152x64, .f32⟩ : BufTy).Contents (Elt Ideal))
  (A2 : (⟨Cert.ReferenceIdeal.S64x64, .f32⟩ : BufTy).Contents (Elt Ideal))
  (A3 : (⟨Cert.ReferenceIdeal.S64, .f32⟩ : BufTy).Contents (Elt Ideal))
  (A4 : (⟨Cert.ReferenceIdeal.S64x64, .f32⟩ : BufTy).Contents (Elt Ideal))
  (A5 : (⟨Cert.ReferenceIdeal.S64, .f32⟩ : BufTy).Contents (Elt Ideal))
  (A6 : (⟨Cert.ReferenceIdeal.S64x64, .f32⟩ : BufTy).Contents (Elt Ideal))
  (A7 A8 A9 : (⟨Cert.ReferenceIdeal.S64, .f32⟩ : BufTy).Contents (Elt Ideal))
  (t : Fin 256)

/-- A linear layer on the block is the reference's on the block's rows, for a weight W (already transposed) and a
    bias B such that the reference's layer reads sum over k of A0(n, k) W(k, c) + B(c). -/
theorem lin_eq (x : FVec Ideal S8192x64 .f32) (w : FVec Ideal S64x64 .f32) (b : FVec Ideal S1x64 .f32)
    (R : (⟨Cert.ReferenceIdeal.S2097152x64, .f32⟩ : BufTy).Contents (Elt Ideal))
    (W : (⟨Cert.ReferenceIdeal.S64x64, .f32⟩ : BufTy).Contents (Elt Ideal))
    (B : (⟨Cert.ReferenceIdeal.S64, .f32⟩ : BufTy).Contents (Elt Ideal))
    (hR : ∀ (n : Fin 2097152) (c : Fin 64), R (ix2 n c) = (∑ k : Fin 64, A0 (ix2 n k) * W (ix2 k c)) + B (ix1 c))
    (hx : ∀ (r : Fin 8192) (k : Fin 64), x (ix2 r k) = A0 (ix2 (grow t r) k))
    (hw : ∀ k c : Fin 64, w (ix2 k c) = W (ix2 k c))
    (hb : ∀ c : Fin 64, b (ix2 (0 : Fin 1) c) = B (ix1 c)) (r : Fin 8192) (c : Fin 64) :
    kLin x w b (ix2 r c) = R (ix2 (grow t r) c) := by
  rw [kLin_apply, hR, hb]
  exact congrArg (· + B (ix1 c)) (Finset.sum_congr rfl fun k _ => by rw [hx, hw])

/-- The scores. -/
theorem scores_eq (q3 k3 : FVec Ideal S8192x4x16 .f32)
    (hq : ∀ (r : Fin 8192) (h : Fin 4) (d : Fin 16), q3 (ix3 r h d) = val_main_v5 (F := Ideal) A0 A2 A3 (ix3 (grow t r) h d))
    (hk : ∀ (r : Fin 8192) (h : Fin 4) (d : Fin 16), k3 (ix3 r h d) = val_main_v11 (F := Ideal) A0 A4 A5 (ix3 (grow t r) h d))
    (r : Fin 8192) (h g : Fin 4) :
    kScores q3 k3 (ix3 r h g) = val_main_v20 (F := Ideal) A0 A2 A3 A4 A5 (ix3 (grow t r) h g) := by
  rw [kScores_apply, rscores]
  exact congrArg (· * Ideal.ofBits .f32 0x3E800000#32) (Finset.sum_congr rfl fun d _ => by rw [hq, hk])

/-- The row maxima. -/
theorem max_eq (s : FVec Ideal S8192x4x4 .f32)
    (hs : ∀ (r : Fin 8192) (h g : Fin 4), s (ix3 r h g) = val_main_v20 (F := Ideal) A0 A2 A3 A4 A5 (ix3 (grow t r) h g))
    (r : Fin 8192) (h : Fin 4) :
    kMax s (ix2 r h) = val_main_v23 (F := Ideal) A0 A2 A3 A4 A5 (ix2 (grow t r) h) := by
  rw [kMax_apply, rmax]
  exact congrArg (fun f : Fin 4 → EReal => max (Ideal.ofBits .f32 0xFF800000#32)
    (Finset.fold max (Ideal.ofBits .f32 0xFF800000#32) f Finset.univ)) (funext fun g => hs r h g)

/-- The exponentials. -/
theorem exp_eq (s : FVec Ideal S8192x4x4 .f32) (mx : FVec Ideal S8192x4 .f32)
    (hs : ∀ (r : Fin 8192) (h g : Fin 4), s (ix3 r h g) = val_main_v20 (F := Ideal) A0 A2 A3 A4 A5 (ix3 (grow t r) h g))
    (hm : ∀ (r : Fin 8192) (h : Fin 4), mx (ix2 r h) = val_main_v23 (F := Ideal) A0 A2 A3 A4 A5 (ix2 (grow t r) h))
    (r : Fin 8192) (h g : Fin 4) :
    kExp s mx (ix3 r h g) = val_main_v27 (F := Ideal) A0 A2 A3 A4 A5 (ix3 (grow t r) h g) := by
  rw [kExp_apply, rexp, hs, hm]

/-- Their sums. -/
theorem den_eq (e : FVec Ideal S8192x4x4 .f32)
    (he : ∀ (r : Fin 8192) (h g : Fin 4), e (ix3 r h g) = val_main_v27 (F := Ideal) A0 A2 A3 A4 A5 (ix3 (grow t r) h g))
    (r : Fin 8192) (h : Fin 4) :
    kDen e (ix3 r h (0 : Fin 1)) = val_main_v28 (F := Ideal) A0 A2 A3 A4 A5 (ix2 (grow t r) h) := by
  rw [kDen_apply, rden]
  exact Finset.sum_congr rfl fun g _ => he r h g

/-- The softmax weights. -/
theorem attn_eq (e : FVec Ideal S8192x4x4 .f32) (den : FVec Ideal S8192x4x1 .f32)
    (he : ∀ (r : Fin 8192) (h g : Fin 4), e (ix3 r h g) = val_main_v27 (F := Ideal) A0 A2 A3 A4 A5 (ix3 (grow t r) h g))
    (hd : ∀ (r : Fin 8192) (h : Fin 4), den (ix3 r h (0 : Fin 1)) = val_main_v28 (F := Ideal) A0 A2 A3 A4 A5 (ix2 (grow t r) h))
    (r : Fin 8192) (h g : Fin 4) :
    kAttn e den (ix3 r h g) = val_main_v31 (F := Ideal) A0 A2 A3 A4 A5 (ix3 (grow t r) h g) := by
  rw [kAttn_apply, rattn, he, hd]

/-- The mix plus the residual. -/
theorem mix_eq (a : FVec Ideal S8192x4x4 .f32) (v3 : FVec Ideal S8192x4x16 .f32) (x : FVec Ideal S8192x64 .f32)
    (ha : ∀ (r : Fin 8192) (h g : Fin 4), a (ix3 r h g) = val_main_v31 (F := Ideal) A0 A2 A3 A4 A5 (ix3 (grow t r) h g))
    (hv : ∀ (r : Fin 8192) (h : Fin 4) (d : Fin 16), v3 (ix3 r h d) = val_main_v17 (F := Ideal) A0 A6 A7 (ix3 (grow t r) h d))
    (hx : ∀ (r : Fin 8192) (k : Fin 64), x (ix2 r k) = A0 (ix2 (grow t r) k))
    (r : Fin 8192) (c : Fin 64) :
    kMix a v3 x (ix2 r c) = val_main_v34 (F := Ideal) A0 A2 A3 A4 A5 A6 A7 (ix2 (grow t r) c) := by
  rw [kMix_apply, rmix, hx]
  exact congrArg (· + A0 (ix2 (grow t r) c)) (Finset.sum_congr rfl fun g _ => by rw [ha, hv])

/-- The row averages. -/
theorem mean_eq (y : FVec Ideal S8192x64 .f32)
    (hy : ∀ (r : Fin 8192) (c : Fin 64), y (ix2 r c) = val_main_v34 (F := Ideal) A0 A2 A3 A4 A5 A6 A7 (ix2 (grow t r) c))
    (r : Fin 8192) :
    kMean y (ix2 r (0 : Fin 1)) = val_main_v38 (F := Ideal) A0 A2 A3 A4 A5 A6 A7 (ix2 (grow t r) (0 : Fin 1)) := by
  rw [kMean_apply, rmean]
  exact congrArg (Ideal.div · (Ideal.ofBits .f32 0x42800000#32)) (Finset.sum_congr rfl fun c _ => hy r c)

/-- The centred rows, as the variance reads them. -/
theorem cen_eq (y : FVec Ideal S8192x64 .f32) (mu : FVec Ideal S8192x1 .f32)
    (hy : ∀ (r : Fin 8192) (c : Fin 64), y (ix2 r c) = val_main_v34 (F := Ideal) A0 A2 A3 A4 A5 A6 A7 (ix2 (grow t r) c))
    (hm : ∀ r : Fin 8192, mu (ix2 r (0 : Fin 1)) = val_main_v38 (F := Ideal) A0 A2 A3 A4 A5 A6 A7 (ix2 (grow t r) (0 : Fin 1)))
    (r : Fin 8192) (c : Fin 64) :
    kCen y mu (ix2 r c) = val_main_v40 (F := Ideal) A0 A2 A3 A4 A5 A6 A7 (ix2 (grow t r) c) := by
  rw [kCen_apply, rcen, hy, hm]

/-- The centred rows, as the result reads them. -/
theorem cen_eq' (y : FVec Ideal S8192x64 .f32) (mu : FVec Ideal S8192x1 .f32)
    (hy : ∀ (r : Fin 8192) (c : Fin 64), y (ix2 r c) = val_main_v34 (F := Ideal) A0 A2 A3 A4 A5 A6 A7 (ix2 (grow t r) c))
    (hm : ∀ r : Fin 8192, mu (ix2 r (0 : Fin 1)) = val_main_v38 (F := Ideal) A0 A2 A3 A4 A5 A6 A7 (ix2 (grow t r) (0 : Fin 1)))
    (r : Fin 8192) (c : Fin 64) :
    kCen y mu (ix2 r c) = val_main_v47 (F := Ideal) A0 A2 A3 A4 A5 A6 A7 (ix2 (grow t r) c) := by
  rw [kCen_apply, rcen', hy, hm]

/-- The variances. -/
theorem var_eq (yc : FVec Ideal S8192x64 .f32)
    (hc : ∀ (r : Fin 8192) (c : Fin 64), yc (ix2 r c) = val_main_v40 (F := Ideal) A0 A2 A3 A4 A5 A6 A7 (ix2 (grow t r) c))
    (r : Fin 8192) :
    kMean (kSq yc) (ix2 r (0 : Fin 1)) = val_main_v45 (F := Ideal) A0 A2 A3 A4 A5 A6 A7 (ix2 (grow t r) (0 : Fin 1)) := by
  rw [kMean_apply, rvar]
  exact congrArg (Ideal.div · (Ideal.ofBits .f32 0x42800000#32))
    (Finset.sum_congr rfl fun c _ => by rw [kSq_apply, hc])

/-- The normalised result. -/
theorem norm_eq (yc : FVec Ideal S8192x64 .f32) (var : FVec Ideal S8192x1 .f32) (g b : FVec Ideal S1x64 .f32)
    (hc : ∀ (r : Fin 8192) (c : Fin 64), yc (ix2 r c) = val_main_v47 (F := Ideal) A0 A2 A3 A4 A5 A6 A7 (ix2 (grow t r) c))
    (hv : ∀ r : Fin 8192, var (ix2 r (0 : Fin 1)) = val_main_v45 (F := Ideal) A0 A2 A3 A4 A5 A6 A7 (ix2 (grow t r) (0 : Fin 1)))
    (hg : ∀ c : Fin 64, g (ix2 (0 : Fin 1) c) = A8 (ix1 c))
    (hb : ∀ c : Fin 64, b (ix2 (0 : Fin 1) c) = A9 (ix1 c))
    (r : Fin 8192) (c : Fin 64) :
    kNorm yc var g b (ix2 r c) = val_main_v58 (F := Ideal) A0 A2 A3 A4 A5 A6 A7 A8 A9 (ix2 (grow t r) c) := by
  rw [kNorm_apply, rout, hc, hv, hg, hb]

/-- THE BLOCK: the body's output on block t is rows t * 8192 + r of the reference's result, when its input block
    is those rows of the input, its weights are the transposed weights and its one-row parameters the vectors. -/
theorem block_eq (x0 : FVec Ideal S8192x64 .f32) (x1 : FVec Ideal S64x64 .f32) (x2 : FVec Ideal S1x64 .f32)
    (x3 : FVec Ideal S64x64 .f32) (x4 : FVec Ideal S1x64 .f32) (x5 : FVec Ideal S64x64 .f32) (x6 x7 x8 : FVec Ideal S1x64 .f32)
    (h0 : ∀ (r : Fin 8192) (k : Fin 64), x0 (ix2 r k) = A0 (ix2 (grow t r) k))
    (h1 : ∀ k c : Fin 64, x1 (ix2 k c) = val_main_v0 (F := Ideal) A2 (ix2 k c))
    (h2 : ∀ c : Fin 64, x2 (ix2 (0 : Fin 1) c) = A3 (ix1 c))
    (h3 : ∀ k c : Fin 64, x3 (ix2 k c) = val_main_v6 (F := Ideal) A4 (ix2 k c))
    (h4 : ∀ c : Fin 64, x4 (ix2 (0 : Fin 1) c) = A5 (ix1 c))
    (h5 : ∀ k c : Fin 64, x5 (ix2 k c) = val_main_v12 (F := Ideal) A6 (ix2 k c))
    (h6 : ∀ c : Fin 64, x6 (ix2 (0 : Fin 1) c) = A7 (ix1 c))
    (h7 : ∀ c : Fin 64, x7 (ix2 (0 : Fin 1) c) = A8 (ix1 c))
    (h8 : ∀ c : Fin 64, x8 (ix2 (0 : Fin 1) c) = A9 (ix1 c))
    (r : Fin 8192) (c : Fin 64) :
    kOut x0 x1 x2 x3 x4 x5 x6 x7 x8 (ix2 r c) = val_main_v58 (F := Ideal) A0 A2 A3 A4 A5 A6 A7 A8 A9 (ix2 (grow t r) c) := by
  have Lq := lin_eq A0 t x0 x1 x2 (val_main_v4 (F := Ideal) A0 A2 A3) (val_main_v0 (F := Ideal) A2) A3 (rq A0 A2 A3) h0 h1 h2
  have Lk := lin_eq A0 t x0 x3 x4 (val_main_v10 (F := Ideal) A0 A4 A5) (val_main_v6 (F := Ideal) A4) A5 (rk A0 A4 A5) h0 h3 h4
  have Lv := lin_eq A0 t x0 x5 x6 (val_main_v16 (F := Ideal) A0 A6 A7) (val_main_v12 (F := Ideal) A6) A7 (rv A0 A6 A7) h0 h5 h6
  have Hq : ∀ (r : Fin 8192) (h : Fin 4) (d : Fin 16), kHeads (kLin x0 x1 x2) (ix3 r h d) = val_main_v5 (F := Ideal) A0 A2 A3 (ix3 (grow t r) h d) :=
    fun r h d => by rw [kHeads_apply, rq3, Lq]
  have Hk : ∀ (r : Fin 8192) (h : Fin 4) (d : Fin 16), kHeads (kLin x0 x3 x4) (ix3 r h d) = val_main_v11 (F := Ideal) A0 A4 A5 (ix3 (grow t r) h d) :=
    fun r h d => by rw [kHeads_apply, rk3, Lk]
  have Hv : ∀ (r : Fin 8192) (h : Fin 4) (d : Fin 16), kHeads (kLin x0 x5 x6) (ix3 r h d) = val_main_v17 (F := Ideal) A0 A6 A7 (ix3 (grow t r) h d) :=
    fun r h d => by rw [kHeads_apply, rv3, Lv]
  have Ss := scores_eq A0 A2 A3 A4 A5 t _ _ Hq Hk
  have Sm := max_eq A0 A2 A3 A4 A5 t _ Ss
  have Se := exp_eq A0 A2 A3 A4 A5 t _ _ Ss Sm
  have Sd := den_eq A0 A2 A3 A4 A5 t _ Se
  have Sa := attn_eq A0 A2 A3 A4 A5 t _ _ Se Sd
  have Sy := mix_eq A0 A2 A3 A4 A5 A6 A7 t _ _ _ Sa Hv h0
  have Su := mean_eq A0 A2 A3 A4 A5 A6 A7 t _ Sy
  have Sc := cen_eq A0 A2 A3 A4 A5 A6 A7 t _ _ Sy Su
  have Sc' := cen_eq' A0 A2 A3 A4 A5 A6 A7 t _ _ Sy Su
  have Sv := var_eq A0 A2 A3 A4 A5 A6 A7 t _ Sc
  exact norm_eq A0 A2 A3 A4 A5 A6 A7 A8 A9 t _ _ x7 x8 Sc' Sv h7 h8 r c

end Cert.RowBridge

end
-- ==== Proof.PointWrites.lean ====
/-
  What a grid point writes back.

  At point t the body's output is the whole body's function of the staged blocks; by the block lemma that is rows
  t * 8192 + r of the reference's composed value G of the argument arrays. So point t writes block t of G.
-/
import proofs.«100614_j21973052686568_1_alg».proof.Proof.Gen.KernelIdeal.Value
import proofs.«100614_j21973052686568_1_alg».proof.Proof.BlockReads
import proofs.«100614_j21973052686568_1_alg».proof.Proof.RowBridge

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.RowIdx Cert.KernelIdeal.Rows

variable (m : (ℓ : Loc nD τ sig) → Buf (Elt Ideal) ℓ) (ρ : Dev nD → PrngReg)

/-! ## What a point writes back -/

/-- WHAT POINT t WRITES BACK is block t of G. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S8192x64) hz, View.ld_unit_zero (S := S64x64) hz, View.ld_unit_zero (S := S1x64) hz]
  rw [pay_eq (iblk m c 0 t) (iblk m c 1 t) (iblk m c 2 t) (iblk m c 3 t) (iblk m c 4 t) (iblk m c 5 t) (iblk m c 6 t) (iblk m c 7 t) (iblk m c 8 t)]
  funext y
  obtain ⟨r, q, rfl⟩ : ∃ (r : Fin 8192) (q : Fin 64), y = ix2 r q := ⟨y 0, y 1, eq_ix2 y⟩
  refine (cut9_apply t _ r q).trans ?_
  refine Eq.trans ?_ (read9_apply t (G m c) r q).symm
  exact Cert.RowBridge.block_eq (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (t.cast N_0)
    (iblk m c 0 t) (iblk m c 1 t) (iblk m c 2 t) (iblk m c 3 t) (iblk m c 4 t) (iblk m c 5 t) (iblk m c 6 t) (iblk m c 7 t) (iblk m c 8 t)
    (iblk0_apply m c t) (iblk1_apply m c t) (iblk2_apply m c t) (iblk3_apply m c t) (iblk4_apply m c t)
    (iblk5_apply m c t) (iblk6_apply m c t) (iblk7_apply m c t) (iblk8_apply m c t) r q

end Cert.KernelIdeal.Whole

end
-- ==== Proof.WholeArray.lean ====
/-
  From the blocks to the whole array.

  Point t writes block t of G, and the 256 blocks tile the 2097152 rows (row n lies in block n div 8192), so after the
  run the result array is G of the argument arrays, entry by entry.
-/
import proofs.«100614_j21973052686568_1_alg».proof.Proof.PointWrites

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.RowIdx Cert.KernelIdeal.Rows

variable (m : (ℓ : Loc nD τ sig) → Buf (Elt Ideal) ℓ) (ρ : Dev nD → PrngReg)

/-- An index of the array is in point t's block iff each coordinate is in the block's range on its axis. -/
theorem mem_blk (t : Fin cfg0.N) (i : S2097152x64.Idx) :
    i ∈ ((cfg0.win 9).blk t).view.set ↔ ∀ a : Fin 2, win0_9.index t a * S8192x64.size a ≤ (i a).val
      ∧ (i a).val < win0_9.index t a * S8192x64.size a + S8192x64.size a := by
  show i ∈ ((View.whole main_v8).slice (win0_9.rect t)).set ↔ _
  rw [View.set_slice_whole, Rect.mem_set_unit]
  exact Iff.rfl

/-- Every row is in some point's block: row n in block n div 8192. -/
theorem cover (i : S2097152x64.Idx) :
    ∃ t : Fin cfg0.N, (cfg0.win 9).flush t = true ∧ i ∈ ((cfg0.win 9).blk t).view.set := by
  have hi0 : (i 0).val < 2097152 := (i 0).isLt
  have hi1 : (i 1).val < 64 := (i 1).isLt
  have hN : cfg0.N = 256 := N_0
  have hlt : (i 0).val / 8192 < cfg0.N := by rw [hN]; omega
  refine ⟨⟨(i 0).val / 8192, hlt⟩, flush0_9 _, ?_⟩
  rw [mem_blk]
  obtain ⟨-, -, e0, e1⟩ := idx_rows ⟨(i 0).val / 8192, hlt⟩
  intro a
  match a with
  | ⟨0, _⟩ =>
    show win0_9.index ⟨(i 0).val / 8192, hlt⟩ (0 : Fin 2) * 8192 ≤ (i 0).val
      ∧ (i 0).val < win0_9.index ⟨(i 0).val / 8192, hlt⟩ (0 : Fin 2) * 8192 + 8192
    rw [e0]
    show (i 0).val / 8192 * 8192 ≤ (i 0).val ∧ (i 0).val < (i 0).val / 8192 * 8192 + 8192
    omega
  | ⟨1, _⟩ =>
    show win0_9.index ⟨(i 0).val / 8192, hlt⟩ (1 : Fin 2) * 64 ≤ (i 1).val
      ∧ (i 1).val < win0_9.index ⟨(i 0).val / 8192, hlt⟩ (1 : Fin 2) * 64 + 64
    rw [e1]
    omega

/-- THE ARRAY after the run is G of the argument arrays. -/
theorem final (c : Dev nD) : (dats m 0 c).arrAt 9 cfg0.N = G m c :=
  (dats m 0 c).arrAt_eq_of_cover 9 (G m c) (fun t _ => flushed_eq m c t) (fun i => cover i)

/-- The kernel's run: the result array at G of the arguments, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.lean ====
/-
  A row-wise attention block with layer normalisation, tiled over rows, against its whole-array reference.

  Both programs compute, for every row x of a 2097152 x 64 input: q, k, v = x W^T + b for three 64 x 64 weights; the
  rows' 4 heads of 16 lanes; the 4 x 4 scores s(h, g) = <q_h, k_g> / 4; their softmax along g (maximum from -inf,
  exponentials of the centred scores, their sum, the quotient); the mix sum over g of a(h, g) v_g laid back on 64
  columns, plus x; and (y - mean y) * rsqrt(var y + eps) * gamma + beta over the 64 columns. The segment ids take no
  part. The kernel does this on 256 blocks of 8192 rows with the transposed weights and the one-row parameters
  resident; the reference on all rows at once.

  Nothing is regrouped between the two: every stage is local to a row and both sides apply the same operations in the
  same order with the same literals, so the equality holds on the extended reals for all inputs, and the precondition
  is never opened. The work is bookkeeping: the kernel's matrix products, lane and row reductions and keepdims
  casts read at an entry against the host's dot_general, reduce and broadcast_in_dim (KernelStages, RefStages, over
  the general lemmas of the Lib files); the stage-by-stage comparison of block t with rows t * 8192 + r (RowBridge);
  and the 256 blocks tiling the result (WholeArray). The ideal pass rewrote nothing, so preserves is trivial; the
  three frames are the generated ones.
-/
import proofs.«100614_j21973052686568_1_alg».proof.Defs
import proofs.«100614_j21973052686568_1_alg».proof.Proof.Gen.Kernel
import proofs.«100614_j21973052686568_1_alg».proof.Proof.Gen.Kernel.Frame
import proofs.«100614_j21973052686568_1_alg».proof.Proof.Gen.KernelIdeal
import proofs.«100614_j21973052686568_1_alg».proof.Proof.Gen.KernelIdeal.Frame
import proofs.«100614_j21973052686568_1_alg».proof.Proof.Gen.KernelIdeal.Value
import proofs.«100614_j21973052686568_1_alg».proof.Proof.Gen.ReferenceIdeal
import proofs.«100614_j21973052686568_1_alg».proof.Proof.Gen.ReferenceIdeal.Run
import proofs.«100614_j21973052686568_1_alg».proof.Proof.Gen.ReferenceIdeal.Read
import proofs.«100614_j21973052686568_1_alg».proof.Proof.Gen.Pre_finite_inputs
import proofs.«100614_j21973052686568_1_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result array ends at the reference's composed value of the arguments (the 256
    blocks, each equal to its rows of that value), and the reference's run ends at that value of its own arguments,
    which agree with the kernel's. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq]
  obtain ⟨a0, -, a2, a3, a4, a5, a6, a7, a8, a9⟩ := hagree c
  rw [a0, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
